-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x256x256 : Shape := ⟨4, ![8, 8, 256, 256]⟩
abbrev S65536x110 : Shape := ⟨2, ![65536, 110]⟩
abbrev S110x65536 : Shape := ⟨2, ![110, 65536]⟩
abbrev S_ : Shape := ⟨0, ![]⟩

class Facts : Prop where
  bcast_S_S8x8x256x256 : S_.BroadcastsInDim S8x8x256x256 (![] : Fin 0 → Fin S8x8x256x256.rank)
  reducesTo_S8x8x256x256_S_d0_1_2_3 : S8x8x256x256.ReducesTo [0, 1, 2, 3] S_
  h_S_ : 0 < S_.numel
  bcast_S_S65536x110 : S_.BroadcastsInDim S65536x110 (![] : Fin 0 → Fin S65536x110.rank)
  reducesTo_S65536x110_S_d0_1 : S65536x110.ReducesTo [0, 1] S_
  bcast_S_S110x65536 : S_.BroadcastsInDim S110x65536 (![] : Fin 0 → Fin S110x65536.rank)
  reducesTo_S110x65536_S_d0_1 : S110x65536.ReducesTo [0, 1] S_

variable [Facts]

def fn_part1 {F : FTy → Type} [FloatOps F] (main_v13 : IVec S_ 1) (main_v16 : IVec S110x65536 1) : IVec S_ 1 :=
  let main_c_5 : IVec S_ 1 := constantI S_ 1 1#1
  let main_v17 : IVec S_ 1 := (fun x v => Host.reduce IntOp.andi x v reducesTo_S110x65536_S_d0_1 h_S_) main_v16 main_c_5
  let main_v18 : IVec S_ 1 := andi main_v13 main_v17
  main_v18

def fn {F : FTy → Type} [FloatOps F] (main_arg0 : FVec F S8x8x256x256 .f32) (main_arg1 : FVec F S8x8x256x256 .f32) (main_arg2 : IVec S8x8x256x256 32) (main_arg3 : FVec F S65536x110 .f32) (main_arg4 : FVec F S110x65536 .f32) : IVec S_ 1 :=
  let main_v0 : FVec F S8x8x256x256 .f32 := Host.absf main_arg0
  let main_cst : FVec F S_ .f32 := constant S_ .f32 0x7F800000#32
  let main_v1 : FVec F S8x8x256x256 .f32 := broadcastInDim S8x8x256x256 ![] bcast_S_S8x8x256x256 main_cst
  let main_v2 : IVec S8x8x256x256 1 := cmpf .olt main_v0 main_v1
  let main_c : IVec S_ 1 := constantI S_ 1 1#1
  let main_v3 : IVec S_ 1 := (fun x v => Host.reduce IntOp.andi x v reducesTo_S8x8x256x256_S_d0_1_2_3 h_S_) main_v2 main_c
  let main_v4 : FVec F S8x8x256x256 .f32 := Host.absf main_arg1
  let main_cst_0 : FVec F S_ .f32 := constant S_ .f32 0x7F800000#32
  let main_v5 : FVec F S8x8x256x256 .f32 := broadcastInDim S8x8x256x256 ![] bcast_S_S8x8x256x256 main_cst_0
  let main_v6 : IVec S8x8x256x256 1 := cmpf .olt main_v4 main_v5
  let main_c_1 : IVec S_ 1 := constantI S_ 1 1#1
  let main_v7 : IVec S_ 1 := (fun x v => Host.reduce IntOp.andi x v reducesTo_S8x8x256x256_S_d0_1_2_3 h_S_) main_v6 main_c_1
  let main_v8 : IVec S_ 1 := andi main_v3 main_v7
  let main_v9 : FVec F S65536x110 .f32 := Host.absf main_arg3
  let main_cst_2 : FVec F S_ .f32 := constant S_ .f32 0x7F800000#32
  let main_v10 : FVec F S65536x110 .f32 := broadcastInDim S65536x110 ![] bcast_S_S65536x110 main_cst_2
  let main_v11 : IVec S65536x110 1 := cmpf .olt main_v9 main_v10
  let main_c_3 : IVec S_ 1 := constantI S_ 1 1#1
  let main_v12 : IVec S_ 1 := (fun x v => Host.reduce IntOp.andi x v reducesTo_S65536x110_S_d0_1 h_S_) main_v11 main_c_3
  let main_v13 : IVec S_ 1 := andi main_v8 main_v12
  let main_v14 : FVec F S110x65536 .f32 := Host.absf main_arg4
  let main_cst_4 : FVec F S_ .f32 := constant S_ .f32 0x7F800000#32
  let main_v15 : FVec F S110x65536 .f32 := broadcastInDim S110x65536 ![] bcast_S_S110x65536 main_cst_4
  let main_v16 : IVec S110x65536 1 := cmpf .olt main_v14 main_v15
  fn_part1 (F := F) main_v13 main_v16
-- ==== Kernel.lean ====
abbrev S8x8x256x256 : Shape := ⟨4, ![8, 8, 256, 256]⟩
abbrev S65536x110 : Shape := ⟨2, ![65536, 110]⟩
abbrev S110x65536 : Shape := ⟨2, ![110, 65536]⟩
abbrev S64x65536 : Shape := ⟨2, ![64, 65536]⟩
abbrev S2x64x110 : Shape := ⟨3, ![2, 64, 110]⟩
abbrev S110x8192 : Shape := ⟨2, ![110, 8192]⟩
abbrev S64x8192 : Shape := ⟨2, ![64, 8192]⟩
abbrev S1x64x110 : Shape := ⟨3, ![1, 64, 110]⟩
abbrev S64x110 : Shape := ⟨2, ![64, 110]⟩
abbrev S_ : Shape := ⟨0, ![]⟩
abbrev S2x1x1 : Shape := ⟨3, ![2, 1, 1]⟩
abbrev S8192x110 : Shape := ⟨2, ![8192, 110]⟩
abbrev S1x1x1 : Shape := ⟨3, ![1, 1, 1]⟩
abbrev S1x1 : Shape := ⟨2, ![1, 1]⟩
abbrev S64 : Shape := ⟨1, ![64]⟩
abbrev S64x1 : Shape := ⟨2, ![64, 1]⟩
abbrev S1 : Shape := ⟨1, ![1]⟩

abbrev nBuf : Space → Nat
  | .hbm => 16
  | .vmem => 19
  | .smem => 0
  | _ => 0

abbrev bufTy : (tb : Table) → Fin (tcTables nBuf tb) → BufTy
  | .hbm, ⟨0, _⟩ => ⟨S8x8x256x256, .f32⟩
  | .hbm, ⟨1, _⟩ => ⟨S8x8x256x256, .f32⟩
  | .hbm, ⟨2, _⟩ => ⟨S8x8x256x256, .i32⟩
  | .hbm, ⟨3, _⟩ => ⟨S65536x110, .f32⟩
  | .hbm, ⟨4, _⟩ => ⟨S110x65536, .f32⟩
  | .hbm, ⟨5, _⟩ => ⟨S64x65536, .f32⟩
  | .hbm, ⟨6, _⟩ => ⟨S64x65536, .f32⟩
  | .hbm, ⟨7, _⟩ => ⟨S64x65536, .i32⟩
  | .hbm, ⟨8, _⟩ => ⟨S2x64x110, .f32⟩
  | .hbm, ⟨9, _⟩ => ⟨S_, .f32⟩
  | .hbm, ⟨10, _⟩ => ⟨S64x110, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S110x8192, .f32⟩
  | .local _ .vmem, ⟨1, _⟩ => ⟨S110x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .i32⟩
  | .local _ .vmem, ⟨7, _⟩ => ⟨S64x8192, .i32⟩
  | .local _ .vmem, ⟨8, _⟩ => ⟨S1x64x110, .f32⟩
  | .local _ .vmem, ⟨9, _⟩ => ⟨S1x64x110, .f32⟩
  | .local _ .vmem, ⟨10, _⟩ => ⟨S64x110, .f32⟩
  | .local _ .vmem, ⟨11, _⟩ => ⟨S64x110, .f32⟩
  | .local _ .vmem, ⟨12, _⟩ => ⟨S8192x110, .f32⟩
  | .local _ .vmem, ⟨13, _⟩ => ⟨S8192x110, .f32⟩
  | .local _ .vmem, ⟨14, _⟩ => ⟨S64x8192, .i32⟩
  | .local _ .vmem, ⟨15, _⟩ => ⟨S64x8192, .i32⟩
  | .local _ .vmem, ⟨16, _⟩ => ⟨S1x1x1, .f32⟩
  | .local _ .vmem, ⟨17, _⟩ => ⟨S1x1x1, .f32⟩
  | .local _ .vmem, ⟨18, _⟩ => ⟨S1x1, .f32⟩
  | _, _ => ⟨S8x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S110x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x110 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x110 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S8192x110 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x8x256x256_S64x65536 : S8x8x256x256.ShapeCasts S64x65536
  inb_S64x110_S64x110_0_0 : ∀ a, (![0, 0] : Fin 2 → Nat) a + S64x110.size a ≤ S64x110.size a
  h_S64x110 : 0 < S64x110.numel
  shapeCasts_S64x110_S64x110 : S64x110.ShapeCasts S64x110
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  bitsLt_bf16_f32 : FTy.bits .bf16 < FTy.bits .f32
  inb_S110x8192_S110x8192_0_0 : ∀ a, (![0, 0] : Fin 2 → Nat) a + S110x8192.size a ≤ S110x8192.size a
  h_S110x8192 : 0 < S110x8192.numel
  inb_S1x64x110_S1x64x110_0_0_0 : ∀ a, (![0, 0, 0] : Fin 3 → Nat) a + S1x64x110.size a ≤ S1x64x110.size a
  h_S1x64x110 : 0 < S1x64x110.numel
  shapeCasts_S1x64x110_S64x110 : S1x64x110.ShapeCasts S64x110
  shapeCasts_S64x110_S1x64x110 : S64x110.ShapeCasts S1x64x110
  reducesTo_S2x64x110_S64x110_d0 : S2x64x110.ReducesTo [0] S64x110
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x110_S8192x110_0_0 : ∀ a, (![0, 0] : Fin 2 → Nat) a + S8192x110.size a ≤ S8192x110.size a
  h_S8192x110 : 0 < S8192x110.numel
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S64x8192_S110x8192_S64x110_1_1_0_0_n_n_wf : DotDims.WF S64x8192 S110x8192 S64x110 [1] [1] [0] [0] [] []
  dot_S64x110_S8192x110_S64x8192_1_1_0_0_n_n_wf : DotDims.WF S64x110 S8192x110 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S110x8192.size a ≤ S110x65536.size a
  hwx0_0 : ∀ i : grid0.Coords, EltTy.bits .f32 = 32 ∨ (Rect.block (s := S110x65536) S110x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x65536.size a
  hwx0_1 : ∀ i : grid0.Coords, EltTy.bits .f32 = 32 ∨ (Rect.block (s := S64x65536) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S64x65536.size a
  hwx0_2 : ∀ i : grid0.Coords, EltTy.bits .f32 = 32 ∨ (Rect.block (s := S64x65536) S64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S64x65536.size a
  hwx0_3 : ∀ i : grid0.Coords, EltTy.bits .i32 = 32 ∨ (Rect.block (s := S64x65536) S64x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x110.size a ≤ S2x64x110.size a
  hwx0_4 : ∀ i : grid0.Coords, EltTy.bits .f32 = 32 ∨ (Rect.block (s := S2x64x110) S1x64x110.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x110.size a ≤ S64x110.size a
  hwx1_0 : ∀ i : grid1.Coords, EltTy.bits .f32 = 32 ∨ (Rect.block (s := S64x110) S64x110.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x110.size a ≤ S65536x110.size a
  hwx1_1 : ∀ i : grid1.Coords, EltTy.bits .f32 = 32 ∨ (Rect.block (s := S65536x110) S8192x110.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S64x65536.size a
  hwx1_2 : ∀ i : grid1.Coords, EltTy.bits .i32 = 32 ∨ (Rect.block (s := S64x65536) S64x8192.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S64x8192_S110x8192_S64x110_1_1_0_0_n_n : DotDims S64x8192 S110x8192 S64x110 where
  lhsContracting := [1]
  rhsContracting := [1]
  lhsNonContracting := [0]
  rhsNonContracting := [0]
  lhsBatch := []
  rhsBatch := []
  wf := dot_S64x8192_S110x8192_S64x110_1_1_0_0_n_n_wf
def dot_S64x110_S8192x110_S64x8192_1_1_0_0_n_n : DotDims S64x110 S8192x110 S64x8192 where
  lhsContracting := [1]
  rhsContracting := [1]
  lhsNonContracting := [0]
  rhsNonContracting := [0]
  lhsBatch := []
  rhsBatch := []
  wf := dot_S64x110_S8192x110_S64x8192_1_1_0_0_n_n_wf

abbrev win0_0 : Pipeline.Window sig grid0 :=
  Pipeline.Window.ofSpec (Memref.whole main_arg4) S110x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64x110.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v4) S64x110.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8192x110.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x8x256x256 : Shape := ⟨4, ![8, 8, 256, 256]⟩
abbrev S65536x110 : Shape := ⟨2, ![65536, 110]⟩
abbrev S110x65536 : Shape := ⟨2, ![110, 65536]⟩
abbrev S8x8x65536 : Shape := ⟨3, ![8, 8, 65536]⟩
abbrev S8x8x110 : Shape := ⟨3, ![8, 8, 110]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x8x256x256, .f32⟩
  | .hbm, ⟨1, _⟩ => ⟨S8x8x256x256, .f32⟩
  | .hbm, ⟨2, _⟩ => ⟨S8x8x256x256, .i32⟩
  | .hbm, ⟨3, _⟩ => ⟨S65536x110, .f32⟩
  | .hbm, ⟨4, _⟩ => ⟨S110x65536, .f32⟩
  | .hbm, ⟨5, _⟩ => ⟨S8x8x65536, .i32⟩
  | .hbm, ⟨6, _⟩ => ⟨S8x8x65536, .f32⟩
  | .hbm, ⟨7, _⟩ => ⟨S8x8x65536, .f32⟩
  | .hbm, ⟨8, _⟩ => ⟨S8x8x65536, .f32⟩
  | .hbm, ⟨9, _⟩ => ⟨S8x8x65536, .f32⟩
  | .hbm, ⟨10, _⟩ => ⟨S8x8x65536, .f32⟩
  | .hbm, ⟨11, _⟩ => ⟨S8x8x110, .f32⟩
  | .hbm, ⟨12, _⟩ => ⟨S8x8x110, .f32⟩
  | .hbm, ⟨13, _⟩ => ⟨S8x8x65536, .f32⟩
  | .hbm, ⟨14, _⟩ => ⟨S8x8x65536, .f32⟩
  | .hbm, ⟨15, _⟩ => ⟨S8x8x65536, .f32⟩
  | .hbm, ⟨16, _⟩ => ⟨S8x8x65536, .f32⟩
  | .hbm, ⟨17, _⟩ => ⟨S8x8x65536, .f32⟩
  | .hbm, ⟨18, _⟩ => ⟨S8x8x65536, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S8x8x256x256_S8x8x65536 : S8x8x256x256.ShapeCasts S8x8x65536
  reducesTo_S8x8x65536_S_d0_1_2 : S8x8x65536.ReducesTo [0, 1, 2] S_
  h_S_ : 0 < S_.numel
  dot_S8x8x65536_S110x65536_S8x8x110_2_1_01_0_n_n_wf : DotDims.WF S8x8x65536 S110x65536 S8x8x110 [2] [1] [0, 1] [0] [] []
  dot_S8x8x110_S65536x110_S8x8x65536_2_1_01_0_n_n_wf : DotDims.WF S8x8x110 S65536x110 S8x8x65536 [2] [1] [0, 1] [0] [] []

variable [Facts₀]

def dot_S8x8x65536_S110x65536_S8x8x110_2_1_01_0_n_n : DotDims S8x8x65536 S110x65536 S8x8x110 where
  lhsContracting := [2]
  rhsContracting := [1]
  lhsNonContracting := [0, 1]
  rhsNonContracting := [0]
  lhsBatch := []
  rhsBatch := []
  wf := dot_S8x8x65536_S110x65536_S8x8x110_2_1_01_0_n_n_wf
def dot_S8x8x110_S65536x110_S8x8x65536_2_1_01_0_n_n : DotDims S8x8x110 S65536x110 S8x8x65536 where
  lhsContracting := [2]
  rhsContracting := [1]
  lhsNonContracting := [0, 1]
  rhsNonContracting := [0]
  lhsBatch := []
  rhsBatch := []
  wf := dot_S8x8x110_S65536x110_S8x8x65536_2_1_01_0_n_n_wf

class Facts : Prop extends Facts₀ where

variable [Facts]
-- ==== Proof.KB.Common.lean ====
/-
  What the two kernels' runs are stated over, for the entry contents `V` of a region (the TensorCore's buffers when
  the region is entered): each window's block at a grid point read off its array; that an input window's current
  staging buffer holds that block at every point; the two branch conditions of each body — "first tile of the core"
  and "last tile of the core" — in closed form over the eight grid points (point `t` is tile `t % 4` of core `t / 4`);
  where the output window is idle (every point but a core's last) and where it is written back (a core's last);
  and the names of the staging and scratch memrefs.
-/
import proofs.«159922_j46213848105408_2_alg».proof.Proof.Gen.Kernel.Launch
import proofs.«159922_j46213848105408_2_alg».proof.Proof.Gen.Kernel.Skeleton
import proofs.«159922_j46213848105408_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The projection kernel (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The reconstruction kernel (pipeline 1) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, in closed form -/

/-- "This is the core's first tile": the projection kernel's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the core's last tile": its second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the bodies are called with -/

abbrev VO0 : View sig .tc .vmem S1x64x110 .f32 := (Memref.whole cc0_stg4_0 : Memref sig .tc .vmem S1x64x110 .f32).view
abbrev ms0_0 (t : Fin cfg0.N) : Memref sig .tc .vmem S110x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x110 .f32 := win0_4.stage (cfg0.slots t 4)
abbrev hs0_4 (t : Fin cfg0.N) : (ms0_4 t).IsWhole := hstage0_4 ((cfg0.slots t 4).cast nbuf0_4)
/-- The projection kernel's accumulator. -/
abbrev scM0 : Memref sig .tc .vmem S64x110 .f32 := Memref.whole cc0_scratch0
abbrev VS0 : View sig .tc .vmem S64x110 .f32 := scM0.view

abbrev VO1 : View sig .tc .vmem S1x1x1 .f32 := (Memref.whole cc1_stg3_0 : Memref sig .tc .vmem S1x1x1 .f32).view
abbrev ms1_0 (t : Fin cfg1.N) : Memref sig .tc .vmem S64x110 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x110 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x8192 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The reconstruction kernel's accumulator. -/
abbrev scM1 : Memref sig .tc .vmem S1x1 .f32 := Memref.whole cc1_scratch0
abbrev VS1 : View sig .tc .vmem S1x1 .f32 := scM1.view

/-! ## A region's scoped rest

The scoped buffers no window of a region stages: the region's own accumulator, and — the two regions sharing one
TensorCore — every scoped buffer of the OTHER region, which this region never touches. The class invariant holds
them all at some contents beside the generator register; what follows splits the accumulator off and puts it back. -/

/-- The other region's scoped buffers, each whole at some contents, as the projection kernel's region carries them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The other region's scoped buffers, as the reconstruction kernel's region carries them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, HR⟩, Hg⟩
  isplitl [HS]; · iexact HS
  isplitl [HR]; · iexact HR
  iexact Hg

theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, HR, Hg⟩
  isplitl [HS HR]
  · isplitl [HS]; · iexact HS
    iexact HR
  iexact Hg

theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨A0, A1, A2, A3, A4, A5, A6, A7, A8, A9, A10, HS⟩, Hg⟩
  isplitl [HS]; · iexact HS
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨A0, A1, A2, A3, A4, A5, A6, A7, A8, A9, A10⟩, Hg⟩
  isplitl [HS A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact HS
  iexact Hg

end Cert.Kernel.Hand

end
-- ==== Proof.KB.Run0A.lean ====
/-
  The projection kernel's body at a core's first tile (the accumulator is reset, then added to; the output window is left alone): run on whole staging memrefs holding the
  input blocks, it ends with the inputs as they were and with the accumulator holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) :
    Σ' (LO : List (View.Piece (Elt F) S1x64x110 .f32)), { LS : List (View.Piece (Elt F) S64x110 .f32) //
      ∀ (xi : Vec F S1x64x110 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨[], ?_, fun xi E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.KB.Run0B.lean ====
/-
  The projection kernel's body at a middle tile (the accumulator is added to; the output window is left alone): run on whole staging memrefs holding the
  input blocks, it ends with the inputs as they were and with the accumulator holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) :
    Σ' (LO : List (View.Piece (Elt F) S1x64x110 .f32)), { LS : List (View.Piece (Elt F) S64x110 .f32) //
      ∀ (xi : Vec F S1x64x110 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨[], ?_, fun xi E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hfO; obtain rfl := harg7.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.KB.Run0C.lean ====
/-
  The projection kernel's body at a core's last tile (the accumulator is added to, then copied into the output window): run on whole staging memrefs holding the
  input blocks, it ends with the inputs as they were and with the accumulator and the output buffer holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) :
    Σ' (LO : List (View.Piece (Elt F) S1x64x110 .f32)), { LS : List (View.Piece (Elt F) S64x110 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨?_, ?_, fun E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg7.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Hand

end
-- ==== Proof.KB.Region0.lean ====
/-
  The projection kernel's region, for the entry contents `V`: what each of the three cases leaves in the accumulator
  and in the output buffer (the pieces the runs found, read back); what they hold after each of the eight grid points,
  by recursion on the point — a core's first tile starts the accumulator afresh, every later tile adds to what the
  tile before left, a core's last tile copies the accumulator out —; the region's invariant (the accumulator at what
  the point before left, the other region's buffers and the generator register riding along); the pipeline's proof
  data; and the body obligation at every point.
-/
import proofs.«159922_j46213848105408_2_alg».proof.Proof.KB.Run0A
import proofs.«159922_j46213848105408_2_alg».proof.Proof.KB.Run0B
import proofs.«159922_j46213848105408_2_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a core's first tile nothing is stored into the output window: a placeholder nothing consults. -/
def out0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) : Vec F S1x64x110 .f32 :=
  VO0.read (Elt F) (VO0.writes (Elt F) VO0.junk (kernelRun0_A c i arg2 harg2 arg3 harg3 arg4 harg4 arg5 harg5 arg6 harg6 arg7 harg7 hc0 hc1 x0 x1 x2 x3).1)
theorem scover0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) (y : S64x110.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S64x110.size (by sl_kernel_rfl) y
/-- The accumulator after a core's first tile. -/
def sout0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) : Vec F S64x110 .f32 :=
  VS0.read (Elt F) (VS0.writes (Elt F) VS0.junk (kernelRun0_A c i arg2 harg2 arg3 harg3 arg4 harg4 arg5 harg5 arg6 harg6 arg7 harg7 hc0 hc1 x0 x1 x2 x3).2.1)

def out0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) : Vec F S1x64x110 .f32 :=
  VO0.read (Elt F) (VO0.writes (Elt F) VO0.junk (kernelRun0_B c i arg2 harg2 arg3 harg3 arg4 harg4 arg5 harg5 arg6 harg6 arg7 harg7 hc0 hc1 x0 x1 x2 x3 xs0).1)
theorem scover0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) (y : S64x110.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S64x110.size (by sl_kernel_rfl) y
/-- The accumulator after a middle tile, from what the tile before left (`xs0`). -/
def sout0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) : Vec F S64x110 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

theorem cover0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) (y : S1x64x110.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x64x110.size (by sl_kernel_rfl) y
/-- The output buffer after a core's last tile. -/
def out0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) : Vec F S1x64x110 .f32 :=
  VO0.read (Elt F) (VO0.writes (Elt F) VO0.junk (kernelRun0_C c i arg2 harg2 arg3 harg3 arg4 harg4 arg5 harg5 arg6 harg6 arg7 harg7 hc0 hc1 x0 x1 x2 x3 xs0).1)
theorem scover0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) (y : S64x110.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S64x110.size (by sl_kernel_rfl) y
def sout0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) : Vec F S64x110 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-! ## After each point -/

/-- The output buffer and the accumulator after the body at position `n`. -/
def outsAt0 (c : Dev nD) : (n : ℕ) → n < cfg0.N → Vec F S1x64x110 .f32 × Vec F S64x110 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (every scoped buffer at anything); afterwards the accumulator
    at what the point before left, the other region's buffers at anything, the generator register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ rest0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      ·
        rw [PhiS0_castSucc V c t, PhiS0_zero V c _ _ hz]
        iintro ⟨HΦ, Ho, ⟨%d0, H0⟩, ⟨%d1, H1⟩, ⟨%d2, H2⟩, ⟨%d3, H3⟩, ⟨%d4, H4⟩⟩
        ihave HΦ' := (PhiA0_split (F := F) c) $$ HΦ
        icases HΦ' with ⟨HS, HR, Hg⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_A c _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_A c _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      by_cases hz : t.val = 0
      · exfalso; omega
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es0, HS⟩⟩
        isplitl [HS HR Hg]
        · isplitl [HS]
          · unfold owns; iexists _; isplitr
            swap; · iexact HS
            ipureintro; exact View.read_writes_of_cover _ _ _ _ _ (scover0_C c _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_B c _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS, HR, Hg⟩
  iapply (PhiA0_join (F := F) c)
  isplitl [HS]; · iexists _; iexact HS
  isplitl [HR]; · iexact HR
  iexact Hg

end

end Cert.Kernel.Hand

end
-- ==== Proof.KB.Run1A.lean ====
/-
  The reconstruction kernel's body at a core's first tile (the accumulator is reset, then added to; the output window is left alone): run on whole staging memrefs holding the
  input blocks, it ends with the inputs as they were and with the accumulator holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) :
    Σ' (LO : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨[], ?_, fun xi E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Hand

end
-- ==== Proof.KB.Run1B.lean ====
/-
  The reconstruction kernel's body at a middle tile (the accumulator is added to; the output window is left alone): run on whole staging memrefs holding the
  input blocks, it ends with the inputs as they were and with the accumulator holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) :
    Σ' (LO : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨[], ?_, fun xi E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Hand

end
-- ==== Proof.KB.Run1C.lean ====
/-
  The reconstruction kernel's body at a core's last tile (the accumulator is added to, then copied into the output window): run on whole staging memrefs holding the
  input blocks, it ends with the inputs as they were and with the accumulator and the output buffer holding the pieces its stores wrote — the
  pieces are found by running the body.
-/
import proofs.«159922_j46213848105408_2_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) :
    Σ' (LO : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨?_, ?_, fun E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Hand

end
-- ==== Proof.KB.Region1.lean ====
/-
  The reconstruction kernel's region, for the entry contents `V`: what each of the three cases leaves in the accumulator
  and in the output buffer (the pieces the runs found, read back); what they hold after each of the eight grid points,
  by recursion on the point — a core's first tile starts the accumulator afresh, every later tile adds to what the
  tile before left, a core's last tile copies the accumulator out —; the region's invariant (the accumulator at what
  the point before left, the other region's buffers and the generator register riding along); the pipeline's proof
  data; and the body obligation at every point.
-/
import proofs.«159922_j46213848105408_2_alg».proof.Proof.KB.Run1A
import proofs.«159922_j46213848105408_2_alg».proof.Proof.KB.Run1B
import proofs.«159922_j46213848105408_2_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a core's first tile nothing is stored into the output window: a placeholder nothing consults. -/
def out1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) : Vec F S1x1x1 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y
/-- The accumulator after a core's first tile. -/
def sout1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) : Vec F S1x1 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) : Vec F S1x1x1 .f32 :=
  VO1.read (Elt F) (VO1.writes (Elt F) VO1.junk (kernelRun1_B c i arg2 harg2 arg3 harg3 arg4 harg4 arg5 harg5 arg6 harg6 hc0 hc1 x0 x1 x2 xs0).1)
theorem scover1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y
/-- The accumulator after a middle tile, from what the tile before left (`xs0`). -/
def sout1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) : Vec F S1x1 .f32 :=
  VS1.read (Elt F) (VS1.writes (Elt F) VS1.junk (kernelRun1_B c i arg2 harg2 arg3 harg3 arg4 harg4 arg5 harg5 arg6 harg6 hc0 hc1 x0 x1 x2 xs0).2.1)

theorem cover1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) (y : S1x1x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x1.size (by sl_kernel_rfl) y
/-- The output buffer after a core's last tile. -/
def out1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) : Vec F S1x1x1 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) (y : S1x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1.size (by sl_kernel_rfl) y
def sout1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) : Vec F S1x1 .f32 :=
  VS1.read (Elt F) (VS1.writes (Elt F) VS1.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## After each point -/

/-- The output buffer and the accumulator after the body at position `n`. -/
def outsAt1 (c : Dev nD) : (n : ℕ) → n < cfg1.N → Vec F S1x1x1 .f32 × Vec F S1x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (every scoped buffer at anything); afterwards the accumulator
    at what the point before left, the other region's buffers at anything, the generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      ·
        rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HS, HR, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es0, HS⟩⟩
        isplitl [HS HR Hg]
        · isplitl [HS]
          · unfold owns; iexists _; isplitr
            swap; · iexact HS
            ipureintro; exact View.read_writes_of_cover _ _ _ _ _ (scover1_C c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_B c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS, HR, Hg⟩
  iapply (PhiA1_join (F := F) c)
  isplitl [HS]; · iexists _; iexact HS
  isplitl [HR]; · iexact HR
  iexact Hg

end

end Cert.Kernel.Hand

end
-- ==== Proof.KB.Run.lean ====
/-
  The whole run: @main is a stretch of host operations (three reshapes), the projection kernel's region, a stretch (a
  constant and the sum of the two cores' partial projections), the reconstruction kernel's region, and a last stretch
  (the sum of the two cores' totals, a constant, the division). The buffers' contents at each boundary are a fold from
  the launch memory — a host stretch applies its operations, a region leaves each of its arrays at what its
  write-backs leave and every other buffer as it found it. Every weakly fair execution terminates, nothing faulting,
  with every unscoped buffer at the last boundary's contents; the argument arrays, which nothing writes, are there as
  launched.
-/
import proofs.«159922_j46213848105408_2_alg».proof.Proof.KB.Region0
import proofs.«159922_j46213848105408_2_alg».proof.Proof.KB.Region1
import proofs.«159922_j46213848105408_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### No item writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m ρ c) ∗ ∃ r, prngReg c r)

/-- The class invariant from the generator register, anything, and the scoped rest; and back. -/
theorem PhiA0_in (c : Dev nD) (Q : sProp 𝕄) :
    (iprop((∃ r, prngReg c r) ∗ Q ∗ Pipeline.scopedRest spec0 c) : sProp 𝕄) ⊢ Pipeline.ΦA spec0 c := by
  unfold Pipeline.ΦA
  iintro ⟨Hp, -, Hr⟩
  isplitl [Hr]; · iexact Hr
  iexact Hp
theorem PhiA0_out (c : Dev nD) :
    (Pipeline.ΦA spec0 c : sProp 𝕄) ⊢ iprop((∃ r, prngReg c r) ∗ (BI.emp : sProp 𝕄) ∗ Pipeline.scopedRest spec0 c) := by
  unfold Pipeline.ΦA
  iintro ⟨Hr, Hp⟩
  isplitl [Hp]; · iexact Hp
  isplitr; · iempintro
  iexact Hr
theorem PhiA1_in (c : Dev nD) (Q : sProp 𝕄) :
    (iprop((∃ r, prngReg c r) ∗ Q ∗ Pipeline.scopedRest spec1 c) : sProp 𝕄) ⊢ Pipeline.ΦA spec1 c := by
  unfold Pipeline.ΦA
  iintro ⟨Hp, -, Hr⟩
  isplitl [Hr]; · iexact Hr
  iexact Hp
theorem PhiA1_out (c : Dev nD) :
    (Pipeline.ΦA spec1 c : sProp 𝕄) ⊢ iprop((∃ r, prngReg c r) ∗ (BI.emp : sProp 𝕄) ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- The projection kernel's region as a segment: entered from every unscoped buffer at `W1`, left at `W2`; its arrays
    split out of the unscoped buffers and put back at what the write-backs leave; the generator register and the scoped
    rest into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c _).trans (hin0 (V1 m ρ) c)
  hout c := by
    rw [Pipeline.ownSems0_none]
    exact (hout0 (V1 m ρ) c).trans (PhiA0_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reconstruction kernel's region as a segment: entered from every unscoped buffer at `W3`, left at `W4`; its arrays
    split out of the unscoped buffers and put back at what the write-backs leave; the generator register and the scoped
    rest into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA1_in c _).trans (hin1 (V3 m ρ) c)
  hout c := by
    rw [Pipeline.ownSems0_none]
    exact (hout1 (V3 m ρ) c).trans (PhiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m ρ c)) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Hand

end
-- ==== Proof.KI.Common.lean ====
/-
  What the two kernels' runs are stated over, for the entry contents `V` of a region (the TensorCore's buffers when
  the region is entered): each window's block at a grid point read off its array; that an input window's current
  staging buffer holds that block at every point; the two branch conditions of each body — "first tile of the core"
  and "last tile of the core" — in closed form over the eight grid points (point `t` is tile `t % 4` of core `t / 4`);
  where the output window is idle (every point but a core's last) and where it is written back (a core's last);
  and the names of the staging and scratch memrefs.
-/
import proofs.«159922_j46213848105408_2_alg».proof.Proof.Gen.KernelIdeal.Launch
import proofs.«159922_j46213848105408_2_alg».proof.Proof.Gen.KernelIdeal.Skeleton
import proofs.«159922_j46213848105408_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The projection kernel (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The reconstruction kernel (pipeline 1) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, in closed form -/

/-- "This is the core's first tile": the projection kernel's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the core's last tile": its second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the bodies are called with -/

abbrev VO0 : View sig .tc .vmem S1x64x110 .f32 := (Memref.whole cc0_stg4_0 : Memref sig .tc .vmem S1x64x110 .f32).view
abbrev ms0_0 (t : Fin cfg0.N) : Memref sig .tc .vmem S110x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x110 .f32 := win0_4.stage (cfg0.slots t 4)
abbrev hs0_4 (t : Fin cfg0.N) : (ms0_4 t).IsWhole := hstage0_4 ((cfg0.slots t 4).cast nbuf0_4)
/-- The projection kernel's accumulator. -/
abbrev scM0 : Memref sig .tc .vmem S64x110 .f32 := Memref.whole cc0_scratch0
abbrev VS0 : View sig .tc .vmem S64x110 .f32 := scM0.view

abbrev VO1 : View sig .tc .vmem S1x1x1 .f32 := (Memref.whole cc1_stg3_0 : Memref sig .tc .vmem S1x1x1 .f32).view
abbrev ms1_0 (t : Fin cfg1.N) : Memref sig .tc .vmem S64x110 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x110 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x8192 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The reconstruction kernel's accumulator. -/
abbrev scM1 : Memref sig .tc .vmem S1x1 .f32 := Memref.whole cc1_scratch0
abbrev VS1 : View sig .tc .vmem S1x1 .f32 := scM1.view

/-! ## A region's scoped rest

The scoped buffers no window of a region stages: the region's own accumulator, and — the two regions sharing one
TensorCore — every scoped buffer of the OTHER region, which this region never touches. The class invariant holds
them all at some contents beside the generator register; what follows splits the accumulator off and puts it back. -/

/-- The other region's scoped buffers, each whole at some contents, as the projection kernel's region carries them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The other region's scoped buffers, as the reconstruction kernel's region carries them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, HR⟩, Hg⟩
  isplitl [HS]; · iexact HS
  isplitl [HR]; · iexact HR
  iexact Hg

theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, HR, Hg⟩
  isplitl [HS HR]
  · isplitl [HS]; · iexact HS
    iexact HR
  iexact Hg

theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨A0, A1, A2, A3, A4, A5, A6, A7, A8, A9, A10, HS⟩, Hg⟩
  isplitl [HS]; · iexact HS
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨A0, A1, A2, A3, A4, A5, A6, A7, A8, A9, A10⟩, Hg⟩
  isplitl [HS A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact HS
  iexact Hg

end Cert.KernelIdeal.Hand

end
-- ==== Proof.KI.Run0A.lean ====
/-
  The projection kernel's body at a core's first tile (the accumulator is reset, then added to; the output window is left alone): run on whole staging memrefs holding the
  input blocks, it ends with the inputs as they were and with the accumulator holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) :
    Σ' (LO : List (View.Piece (Elt F) S1x64x110 .f32)), { LS : List (View.Piece (Elt F) S64x110 .f32) //
      ∀ (xi : Vec F S1x64x110 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨[], ?_, fun xi E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.KI.Run0B.lean ====
/-
  The projection kernel's body at a middle tile (the accumulator is added to; the output window is left alone): run on whole staging memrefs holding the
  input blocks, it ends with the inputs as they were and with the accumulator holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) :
    Σ' (LO : List (View.Piece (Elt F) S1x64x110 .f32)), { LS : List (View.Piece (Elt F) S64x110 .f32) //
      ∀ (xi : Vec F S1x64x110 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨[], ?_, fun xi E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hfO; obtain rfl := harg7.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.KI.Run0C.lean ====
/-
  The projection kernel's body at a core's last tile (the accumulator is added to, then copied into the output window): run on whole staging memrefs holding the
  input blocks, it ends with the inputs as they were and with the accumulator and the output buffer holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) :
    Σ' (LO : List (View.Piece (Elt F) S1x64x110 .f32)), { LS : List (View.Piece (Elt F) S64x110 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__project_kernel i arg2 harg2 arg3 harg3 arg4 harg4 arg5 harg5 arg6 harg6 arg7 harg7) K } := by
  refine ⟨?_, ?_, fun E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg7.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Hand

end
-- ==== Proof.KI.Region0.lean ====
/-
  The projection kernel's region, for the entry contents `V`: what each of the three cases leaves in the accumulator
  and in the output buffer (the pieces the runs found, read back); what they hold after each of the eight grid points,
  by recursion on the point — a core's first tile starts the accumulator afresh, every later tile adds to what the
  tile before left, a core's last tile copies the accumulator out —; the region's invariant (the accumulator at what
  the point before left, the other region's buffers and the generator register riding along); the pipeline's proof
  data; and the body obligation at every point.
-/
import proofs.«159922_j46213848105408_2_alg».proof.Proof.KI.Run0A
import proofs.«159922_j46213848105408_2_alg».proof.Proof.KI.Run0B
import proofs.«159922_j46213848105408_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a core's first tile nothing is stored into the output window: a placeholder nothing consults. -/
def out0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) : Vec F S1x64x110 .f32 :=
  VO0.read (Elt F) (VO0.writes (Elt F) VO0.junk (kernelRun0_A c i arg2 harg2 arg3 harg3 arg4 harg4 arg5 harg5 arg6 harg6 arg7 harg7 hc0 hc1 x0 x1 x2 x3).1)
theorem scover0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) (y : S64x110.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S64x110.size (by sl_kernel_rfl) y
/-- The accumulator after a core's first tile. -/
def sout0_A (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i)
    (x0 : Vec F S110x8192 .f32) (x1 : Vec F S64x8192 .f32) (x2 : Vec F S64x8192 .f32) (x3 : Vec F S64x8192 .i32) : Vec F S64x110 .f32 :=
  VS0.read (Elt F) (VS0.writes (Elt F) VS0.junk (kernelRun0_A c i arg2 harg2 arg3 harg3 arg4 harg4 arg5 harg5 arg6 harg6 arg7 harg7 hc0 hc1 x0 x1 x2 x3).2.1)

def out0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) : Vec F S1x64x110 .f32 :=
  VO0.read (Elt F) (VO0.writes (Elt F) VO0.junk (kernelRun0_B c i arg2 harg2 arg3 harg3 arg4 harg4 arg5 harg5 arg6 harg6 arg7 harg7 hc0 hc1 x0 x1 x2 x3 xs0).1)
theorem scover0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) (y : S64x110.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S64x110.size (by sl_kernel_rfl) y
/-- The accumulator after a middle tile, from what the tile before left (`xs0`). -/
def sout0_B (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i)
    (x0 : Vec F S110x8192 .f32) (x1 : Vec F S64x8192 .f32) (x2 : Vec F S64x8192 .f32) (x3 : Vec F S64x8192 .i32) (xs0 : Vec F S64x110 .f32) : Vec F S64x110 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

theorem cover0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) (y : S1x64x110.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x64x110.size (by sl_kernel_rfl) y
/-- The output buffer after a core's last tile. -/
def out0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) : Vec F S1x64x110 .f32 :=
  VO0.read (Elt F) (VO0.writes (Elt F) VO0.junk (kernelRun0_C c i arg2 harg2 arg3 harg3 arg4 harg4 arg5 harg5 arg6 harg6 arg7 harg7 hc0 hc1 x0 x1 x2 x3 xs0).1)
theorem scover0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) (y : S64x110.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S64x110.size (by sl_kernel_rfl) y
def sout0_C (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i)
    (x0 : Vec F S110x8192 .f32) (x1 : Vec F S64x8192 .f32) (x2 : Vec F S64x8192 .f32) (x3 : Vec F S64x8192 .i32) (xs0 : Vec F S64x110 .f32) : Vec F S64x110 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-! ## After each point -/

/-- The output buffer and the accumulator after the body at position `n`. -/
def outsAt0 (c : Dev nD) : (n : ℕ) → n < cfg0.N → Vec F S1x64x110 .f32 × Vec F S64x110 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (every scoped buffer at anything); afterwards the accumulator
    at what the point before left, the other region's buffers at anything, the generator register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ rest0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      ·
        rw [PhiS0_castSucc V c t, PhiS0_zero V c _ _ hz]
        iintro ⟨HΦ, Ho, ⟨%d0, H0⟩, ⟨%d1, H1⟩, ⟨%d2, H2⟩, ⟨%d3, H3⟩, ⟨%d4, H4⟩⟩
        ihave HΦ' := (PhiA0_split (F := F) c) $$ HΦ
        icases HΦ' with ⟨HS, HR, Hg⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_A c _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_A c _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      by_cases hz : t.val = 0
      · exfalso; omega
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es0, HS⟩⟩
        isplitl [HS HR Hg]
        · isplitl [HS]
          · unfold owns; iexists _; isplitr
            swap; · iexact HS
            ipureintro; exact View.read_writes_of_cover _ _ _ _ _ (scover0_C c _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨HS, HR, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es0, HS⟩⟩
        isplitl [HS HR Hg]
        · isplitl [HS]
          · unfold owns; iexists _; isplitr
            swap; · iexact HS
            ipureintro; exact View.read_writes_of_cover _ _ _ _ _ (scover0_B c _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS, HR, Hg⟩
  iapply (PhiA0_join (F := F) c)
  isplitl [HS]; · iexists _; iexact HS
  isplitl [HR]; · iexact HR
  iexact Hg

end

end Cert.KernelIdeal.Hand

end
-- ==== Proof.KI.Values0.lean ====
/-
  The projection kernel's region, read as values.

  The three cases of the body leave, in the accumulator and in the output buffer, pieces found by running the body;
  here they are read back as the body's arithmetic. A core's first tile leaves one accumulation step from the
  zero array; a middle tile one accumulation step from what the tile before left; a core's last tile the same, and
  copies the result out under a leading axis of extent one. So the accumulator after each grid point is a
  recursion on the point — restarting at every fourth point, where a core's tiles begin — and the output buffer
  after a core's last tile is the copy of the accumulator there.
-/
import proofs.«159922_j46213848105408_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a two-axis store, as a constant function. -/
theorem hz2 : (![0, 0] : Fin 2 → Nat) = fun _ => 0 := funext fun a => by fin_cases a <;> rfl
/-- The zero offsets of a three-axis store. -/
theorem hz3 : (![0, 0, 0] : Fin 3 → Nat) = fun _ => 0 := funext fun a => by fin_cases a <;> rfl

/-! ## What each case leaves -/

/-- A core's first tile: the accumulator is reset to zero, read back, and added to once. -/
theorem sout0_A_eq (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : cond0_0 i) (hc1 : ¬cond0_1 i) (x0 : Vec F S110x8192 .f32) (x1 : Vec F S64x8192 .f32) (x2 : Vec F S64x8192 .f32) (x3 : Vec F S64x8192 .i32) :
    sout0_A c i arg2 harg2 arg3 harg3 arg4 harg4 arg5 harg5 arg6 harg6 arg7 harg7 hc0 hc1 x0 x1 x2 x3 = k0_pay2 x3 x1 x2 x0 (k0_pay1 (F := F)) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x110) hz2, View.readCov_unit_zero (S := S64x110) _ hz2]
  simp only [View.readAt_eq_ld, harg2.read_unread, harg3.read_unread, harg4.read_unread, harg5.read_unread,
    View.ld_unit_zero (S := S64x8192) hz2, View.ld_unit_zero (S := S110x8192) hz2]

/-- A middle tile: one accumulation step from what the tile before left. -/
theorem sout0_B_eq (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : ¬cond0_1 i) (x0 : Vec F S110x8192 .f32) (x1 : Vec F S64x8192 .f32) (x2 : Vec F S64x8192 .f32) (x3 : Vec F S64x8192 .i32) (xs0 : Vec F S64x110 .f32) :
    sout0_B c i arg2 harg2 arg3 harg3 arg4 harg4 arg5 harg5 arg6 harg6 arg7 harg7 hc0 hc1 x0 x1 x2 x3 xs0 = k0_pay2 x3 x1 x2 x0 xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg7.read_unread,
    View.ld_unit_zero (S := S64x8192) hz2, View.ld_unit_zero (S := S110x8192) hz2, View.ld_unit_zero (S := S64x110) hz2]

/-- A core's last tile: the same accumulation step. -/
theorem sout0_C_eq (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i) (x0 : Vec F S110x8192 .f32) (x1 : Vec F S64x8192 .f32) (x2 : Vec F S64x8192 .f32) (x3 : Vec F S64x8192 .i32) (xs0 : Vec F S64x110 .f32) :
    sout0_C c i arg2 harg2 arg3 harg3 arg4 harg4 arg5 harg5 arg6 harg6 arg7 harg7 hc0 hc1 x0 x1 x2 x3 xs0 = k0_pay2 x3 x1 x2 x0 xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S64x8192) hz2, View.ld_unit_zero (S := S110x8192) hz2, View.ld_unit_zero (S := S64x110) hz2]

/-- A core's last tile copies the accumulator it has just written into the output buffer. -/
theorem out0_C_eq (c : Dev nD) (i : grid0.Coords) (arg2 : Memref sig .tc .vmem S110x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .i32) (harg5 : arg5.IsWhole) (arg6 : Memref sig .tc .vmem S1x64x110 .f32) (harg6 : arg6.IsWhole) (arg7 : Memref sig .tc .vmem S64x110 .f32) (harg7 : arg7.IsWhole) (hc0 : ¬cond0_0 i) (hc1 : cond0_1 i) (x0 : Vec F S110x8192 .f32) (x1 : Vec F S64x8192 .f32) (x2 : Vec F S64x8192 .f32) (x3 : Vec F S64x8192 .i32) (xs0 : Vec F S64x110 .f32) :
    out0_C c i arg2 harg2 arg3 harg3 arg4 harg4 arg5 harg5 arg6 harg6 arg7 harg7 hc0 hc1 x0 x1 x2 x3 xs0 = k0_pay3 (k0_pay2 x3 x1 x2 x0 xs0) := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S64x110) _ hz2]
  simp only [View.readAt_eq_ld, harg2.read_unread, harg3.read_unread, harg4.read_unread, harg5.read_unread, harg7.read_unread,
    View.ld_unit_zero (S := S64x8192) hz2, View.ld_unit_zero (S := S110x8192) hz2, View.ld_unit_zero (S := S64x110) hz2]

section
variable (V : (c : Dev nD) → (b : Ref sig .tc) → Buf (Elt F) ((c : Thread nD τ).loc b))

/-! ## The accumulator after each point -/

/-- The accumulator after grid point `n`: at a core's first tile one accumulation step from zero, at every other
    tile one step from the accumulator after the point before. -/
def acc0 (c : Dev nD) : (n : ℕ) → n < cfg0.N → Vec F S64x110 .f32
  | 0, h => k0_pay2 (iblk0 V c 3 ⟨0, h⟩) (iblk0 V c 1 ⟨0, h⟩) (iblk0 V c 2 ⟨0, h⟩) (iblk0 V c 0 ⟨0, h⟩) (k0_pay1 (F := F))
  | n + 1, h =>
    if (n + 1) % 4 = 0 then
      k0_pay2 (iblk0 V c 3 ⟨n + 1, h⟩) (iblk0 V c 1 ⟨n + 1, h⟩) (iblk0 V c 2 ⟨n + 1, h⟩) (iblk0 V c 0 ⟨n + 1, h⟩) (k0_pay1 (F := F))
    else
      k0_pay2 (iblk0 V c 3 ⟨n + 1, h⟩) (iblk0 V c 1 ⟨n + 1, h⟩) (iblk0 V c 2 ⟨n + 1, h⟩) (iblk0 V c 0 ⟨n + 1, h⟩) (acc0 c n (Nat.lt_of_succ_lt h))

/-- What the region's recursion holds in the accumulator after point `n` is that closed form: by induction on the
    point, through the three cases. -/
theorem outsAt0_snd (c : Dev nD) : ∀ (n : ℕ) (h : n < cfg0.N), (outsAt0 V c n h).2 = acc0 V c n h
  | 0, h => by
    have h0 : (⟨0, h⟩ : Fin cfg0.N).val % 4 = 0 := Nat.zero_mod _
    have h1 : ¬(⟨0, h⟩ : Fin cfg0.N).val % 4 = 3 := by dsimp only; omega
    exact (congrArg Prod.snd (outsAt0_A V c ⟨0, h⟩ h0 h1)).trans
      (sout0_A_eq (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0 (Memref.isWhole_whole _) ((hcond0_0 ⟨0, h⟩).mpr h0) (fun hh => h1 ((hcond0_1 ⟨0, h⟩).mp hh)) (iblk0 V c 0 ⟨0, h⟩) (iblk0 V c 1 ⟨0, h⟩) (iblk0 V c 2 ⟨0, h⟩) (iblk0 V c 3 ⟨0, h⟩))
  | n + 1, h => by
    by_cases h0 : (n + 1) % 4 = 0
    · have h1 : ¬(n + 1) % 4 = 3 := by omega
      refine (congrArg Prod.snd (outsAt0_A V c ⟨n + 1, h⟩ h0 h1)).trans ?_
      refine (sout0_A_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0 (Memref.isWhole_whole _) ((hcond0_0 ⟨n + 1, h⟩).mpr h0) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩)).trans ?_
      show _ = if (n + 1) % 4 = 0 then _ else _
      rw [if_pos h0]
    · by_cases h1 : (n + 1) % 4 = 3
      · refine (congrArg Prod.snd (outsAt0_C V c ⟨n + 1, h⟩ h0 h1)).trans ?_
        refine (sout0_C_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) _).trans ?_
        show _ = if (n + 1) % 4 = 0 then _ else _
        rw [if_neg h0]
        exact congrArg (k0_pay2 _ _ _ _) (outsAt0_snd c n _)
      · refine (congrArg Prod.snd (outsAt0_B V c ⟨n + 1, h⟩ h0 h1)).trans ?_
        refine (sout0_B_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) _).trans ?_
        show _ = if (n + 1) % 4 = 0 then _ else _
        rw [if_neg h0]
        exact congrArg (k0_pay2 _ _ _ _) (outsAt0_snd c n _)

/-- After a core's last tile the output buffer holds the copy of the accumulator. -/
theorem outsAt0_fst_last (c : Dev nD) (t : Fin cfg0.N) (h3 : t.val % 4 = 3) :
    (outsAt0 V c t.val t.isLt).1 = k0_pay3 (acc0 V c t.val t.isLt) := by
  have h1 : t.val % 4 = 3 := h3
  have h0 : ¬t.val % 4 = 0 := by omega
  have e := outsAt0_C V c t h0 h1
  rw [← outsAt0_snd V c t.val t.isLt]
  refine (congrArg Prod.fst e).trans ?_
  refine (out0_C_eq (F := F) c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0_0 t).mp hh)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).trans ?_
  refine congrArg k0_pay3 ?_
  refine Eq.trans ?_ (congrArg Prod.snd e).symm
  exact (sout0_C_eq (F := F) c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0_0 t).mp hh)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).symm

end

end Cert.KernelIdeal.Hand

end
-- ==== Proof.KI.Run1A.lean ====
/-
  The reconstruction kernel's body at a core's first tile (the accumulator is reset, then added to; the output window is left alone): run on whole staging memrefs holding the
  input blocks, it ends with the inputs as they were and with the accumulator holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) :
    Σ' (LO : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨[], ?_, fun xi E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Hand

end
-- ==== Proof.KI.Run1B.lean ====
/-
  The reconstruction kernel's body at a middle tile (the accumulator is added to; the output window is left alone): run on whole staging memrefs holding the
  input blocks, it ends with the inputs as they were and with the accumulator holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) :
    Σ' (LO : List (View.Piece (Elt F) S1x1x1 .f32)), { LS : List (View.Piece (Elt F) S1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨[], ?_, fun xi E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Hand

end
-- ==== Proof.KI.Run1C.lean ====
/-
  The reconstruction kernel's body at a core's last tile (the accumulator is added to, then copied into the output window): run on whole staging memrefs holding the
  input blocks, it ends with the inputs as they were and with the accumulator and the output buffer holding the pieces its stores wrote — the
  pieces are found by running the body.
-/
import proofs.«159922_j46213848105408_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) :
    Σ' (LO : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__reconstruct_kernel i arg2 harg2 arg3 harg3 arg4 harg4 arg5 harg5 arg6 harg6) K } := by
  refine ⟨?_, ?_, fun E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Hand

end
-- ==== Proof.KI.Region1.lean ====
/-
  The reconstruction kernel's region, for the entry contents `V`: what each of the three cases leaves in the accumulator
  and in the output buffer (the pieces the runs found, read back); what they hold after each of the eight grid points,
  by recursion on the point — a core's first tile starts the accumulator afresh, every later tile adds to what the
  tile before left, a core's last tile copies the accumulator out —; the region's invariant (the accumulator at what
  the point before left, the other region's buffers and the generator register riding along); the pipeline's proof
  data; and the body obligation at every point.
-/
import proofs.«159922_j46213848105408_2_alg».proof.Proof.KI.Run1A
import proofs.«159922_j46213848105408_2_alg».proof.Proof.KI.Run1B
import proofs.«159922_j46213848105408_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a core's first tile nothing is stored into the output window: a placeholder nothing consults. -/
def out1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) : Vec F S1x1x1 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y
/-- The accumulator after a core's first tile. -/
def sout1_A (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) : Vec F S1x1 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) : Vec F S1x1x1 .f32 :=
  VO1.read (Elt F) (VO1.writes (Elt F) VO1.junk (kernelRun1_B c i arg2 harg2 arg3 harg3 arg4 harg4 arg5 harg5 arg6 harg6 hc0 hc1 x0 x1 x2 xs0).1)
theorem scover1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y
/-- The accumulator after a middle tile, from what the tile before left (`xs0`). -/
def sout1_B (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) : Vec F S1x1 .f32 :=
  VS1.read (Elt F) (VS1.writes (Elt F) VS1.junk (kernelRun1_B c i arg2 harg2 arg3 harg3 arg4 harg4 arg5 harg5 arg6 harg6 hc0 hc1 x0 x1 x2 xs0).2.1)

theorem cover1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) (y : S1x1x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x1.size (by sl_kernel_rfl) y
/-- The output buffer after a core's last tile. -/
def out1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) : Vec F S1x1x1 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) (y : S1x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1.size (by sl_kernel_rfl) y
def sout1_C (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) : Vec F S1x1 .f32 :=
  VS1.read (Elt F) (VS1.writes (Elt F) VS1.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## After each point -/

/-- The output buffer and the accumulator after the body at position `n`. -/
def outsAt1 (c : Dev nD) : (n : ℕ) → n < cfg1.N → Vec F S1x1x1 .f32 × Vec F S1x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (every scoped buffer at anything); afterwards the accumulator
    at what the point before left, the other region's buffers at anything, the generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      ·
        rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HS, HR, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es0, HS⟩⟩
        isplitl [HS HR Hg]
        · isplitl [HS]
          · unfold owns; iexists _; isplitr
            swap; · iexact HS
            ipureintro; exact View.read_writes_of_cover _ _ _ _ _ (scover1_C c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨HS, HR, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es0, HS⟩⟩
        isplitl [HS HR Hg]
        · isplitl [HS]
          · unfold owns; iexists _; isplitr
            swap; · iexact HS
            ipureintro; exact View.read_writes_of_cover _ _ _ _ _ (scover1_B c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS, HR, Hg⟩
  iapply (PhiA1_join (F := F) c)
  isplitl [HS]; · iexists _; iexact HS
  isplitl [HR]; · iexact HR
  iexact Hg

end

end Cert.KernelIdeal.Hand

end
-- ==== Proof.KI.Values1.lean ====
/-
  The reconstruction kernel's accumulator and output buffer, as values.

  What each of the three cases leaves is read back from the pieces its stores wrote: every load and every store of the
  body goes through the whole buffer, so one store leaves its payload, a load after it reads that payload, and a load of
  an untouched buffer reads the buffer's contents. A core's first tile leaves the tile's sum of squares added to the
  reset value; every later tile adds its own to what the tile before left; a core's last tile also copies the
  accumulator into the output buffer. The accumulator after each grid point is then a recursion on the point: the
  tile's sum added to the reset value at the first tile of a core, to the previous point's accumulator otherwise.
-/
import proofs.«159922_j46213848105408_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 rectangle, as a function. -/
theorem off2_zero : (![0, 0] : Fin 2 → Nat) = fun _ => 0 := funext fun a => by fin_cases a <;> rfl
/-- The zero offsets of a rank-3 rectangle, as a function. -/
theorem off3_zero : (![0, 0, 0] : Fin 3 → Nat) = fun _ => 0 := funext fun a => by fin_cases a <;> rfl

/-! ## What each case leaves, as values -/

/-- A core's first tile: the reset value, then the tile's sum of squares added to it. -/
theorem sout1_A_eq (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S64x110 .f32) (x1 : Vec F S8192x110 .f32) (x2 : Vec F S64x8192 .i32) :
    sout1_A c i arg2 harg2 arg3 harg3 arg4 harg4 arg5 harg5 arg6 harg6 hc0 hc1 x0 x1 x2 = k1_pay2 x2 x1 x0 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1x1) off2_zero, View.readCov_unit_zero (S := S1x1) _ off2_zero]
  simp only [View.readAt_eq_ld, harg2.read_unread, harg3.read_unread, harg4.read_unread, harg6.read_unread, View.ld_unit_zero (S := S64x8192) off2_zero, View.ld_unit_zero (S := S8192x110) off2_zero, View.ld_unit_zero (S := S64x110) off2_zero, View.ld_unit_zero (S := S1x1) off2_zero]

/-- A middle tile: the tile's sum of squares added to what the tile before left. -/
theorem sout1_B_eq (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : ¬cond1_1 i)
    (x0 : Vec F S64x110 .f32) (x1 : Vec F S8192x110 .f32) (x2 : Vec F S64x8192 .i32) (xs0 : Vec F S1x1 .f32) :
    sout1_B c i arg2 harg2 arg3 harg3 arg4 harg4 arg5 harg5 arg6 harg6 hc0 hc1 x0 x1 x2 xs0 = k1_pay2 x2 x1 x0 xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero (S := S1x1) off2_zero]
  simp only [View.readAt_eq_ld, harg2.read_unread, harg3.read_unread, harg4.read_unread, harg6.read_unread, View.ld_unit_zero (S := S64x8192) off2_zero, View.ld_unit_zero (S := S8192x110) off2_zero, View.ld_unit_zero (S := S64x110) off2_zero, View.ld_unit_zero (S := S1x1) off2_zero]

/-- A core's last tile leaves the same in the accumulator … -/
theorem sout1_C_eq (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) :
    sout1_C c i arg2 harg2 arg3 harg3 arg4 harg4 arg5 harg5 arg6 harg6 hc0 hc1 x0 x1 x2 xs0 = k1_pay2 x2 x1 x0 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S1x1) off2_zero]
  simp only [View.readAt_eq_ld, harg2.read_unread, harg3.read_unread, harg4.read_unread, harg6.read_unread, View.ld_unit_zero (S := S64x8192) off2_zero, View.ld_unit_zero (S := S8192x110) off2_zero, View.ld_unit_zero (S := S64x110) off2_zero, View.ld_unit_zero (S := S1x1) off2_zero]

/-- … and copies it into the output buffer. -/
theorem out1_C_eq (c : Dev nD) (i : grid1.Coords) (arg2 : Memref sig .tc .vmem S64x110 .f32) (harg2 : arg2.IsWhole) (arg3 : Memref sig .tc .vmem S8192x110 .f32) (harg3 : arg3.IsWhole) (arg4 : Memref sig .tc .vmem S64x8192 .i32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S64x110 .f32) (x1 : Vec F S8192x110 .f32) (x2 : Vec F S64x8192 .i32) (xs0 : Vec F S1x1 .f32) :
    out1_C c i arg2 harg2 arg3 harg3 arg4 harg4 arg5 harg5 arg6 harg6 hc0 hc1 x0 x1 x2 xs0 = k1_pay3 (k1_pay2 x2 x1 x0 xs0) := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S1x1x1) off3_zero, View.readCov_unit_zero (S := S1x1) _ off2_zero]
  simp only [View.readAt_eq_ld, harg2.read_unread, harg3.read_unread, harg4.read_unread, harg6.read_unread, View.ld_unit_zero (S := S64x8192) off2_zero, View.ld_unit_zero (S := S8192x110) off2_zero, View.ld_unit_zero (S := S64x110) off2_zero, View.ld_unit_zero (S := S1x1) off2_zero]

section
variable (V : (c : Dev nD) → (b : Ref sig .tc) → Buf (Elt F) ((c : Thread nD τ).loc b))

/-! ## The accumulator after each point -/

/-- The accumulator after point `n`: the tile's sum of squares added to the reset value at a core's first tile, to the
    accumulator after the point before otherwise. -/
def acc1 (c : Dev nD) : (n : ℕ) → n < cfg1.N → Vec F S1x1 .f32
  | 0, h => k1_pay2 (iblk1 V c 2 ⟨0, h⟩) (iblk1 V c 1 ⟨0, h⟩) (iblk1 V c 0 ⟨0, h⟩) (k1_pay1 (F := F))
  | n + 1, h =>
    if (n + 1) % 4 = 0 then
      k1_pay2 (iblk1 V c 2 ⟨n + 1, h⟩) (iblk1 V c 1 ⟨n + 1, h⟩) (iblk1 V c 0 ⟨n + 1, h⟩) (k1_pay1 (F := F))
    else
      k1_pay2 (iblk1 V c 2 ⟨n + 1, h⟩) (iblk1 V c 1 ⟨n + 1, h⟩) (iblk1 V c 0 ⟨n + 1, h⟩) (acc1 c n (Nat.lt_of_succ_lt h))

theorem acc1_succ_first (c : Dev nD) (n : ℕ) (h : n + 1 < cfg1.N) (h0 : (n + 1) % 4 = 0) :
    acc1 V c (n + 1) h
      = k1_pay2 (iblk1 V c 2 ⟨n + 1, h⟩) (iblk1 V c 1 ⟨n + 1, h⟩) (iblk1 V c 0 ⟨n + 1, h⟩) (k1_pay1 (F := F)) :=
  if_pos h0

theorem acc1_succ_later (c : Dev nD) (n : ℕ) (h : n + 1 < cfg1.N) (h0 : ¬(n + 1) % 4 = 0) :
    acc1 V c (n + 1) h
      = k1_pay2 (iblk1 V c 2 ⟨n + 1, h⟩) (iblk1 V c 1 ⟨n + 1, h⟩) (iblk1 V c 0 ⟨n + 1, h⟩) (acc1 V c n (Nat.lt_of_succ_lt h)) :=
  if_neg h0

/-- What the region's recursion holds in the accumulator after point `n` is that value: by induction on the point. -/
theorem outsAt1_snd (c : Dev nD) : ∀ (n : ℕ) (h : n < cfg1.N), (outsAt1 V c n h).2 = acc1 V c n h
  | 0, h => by
    refine (congrArg Prod.snd (outsAt1_A V c ⟨0, h⟩ rfl (by dsimp only; omega))).trans ?_
    dsimp only
    rw [sout1_A_eq]
    rfl
  | n + 1, h => by
    by_cases h0 : (n + 1) % 4 = 0
    · have h1 : ¬(n + 1) % 4 = 3 := by omega
      refine (congrArg Prod.snd (outsAt1_A V c ⟨n + 1, h⟩ h0 h1)).trans ?_
      dsimp only
      rw [sout1_A_eq, acc1_succ_first V c n h h0]
    · by_cases h1 : (n + 1) % 4 = 3
      · refine (congrArg Prod.snd (outsAt1_C V c ⟨n + 1, h⟩ h0 h1)).trans ?_
        dsimp only
        rw [sout1_C_eq, acc1_succ_later V c n h h0]
        show k1_pay2 _ _ _ (outsAt1 V c n _).2 = k1_pay2 _ _ _ (acc1 V c n _)
        rw [outsAt1_snd c n]
      · refine (congrArg Prod.snd (outsAt1_B V c ⟨n + 1, h⟩ h0 h1)).trans ?_
        dsimp only
        rw [sout1_B_eq, acc1_succ_later V c n h h0]
        show k1_pay2 _ _ _ (outsAt1 V c n _).2 = k1_pay2 _ _ _ (acc1 V c n _)
        rw [outsAt1_snd c n]

/-- At a core's last tile the output buffer holds the accumulator. -/
theorem outsAt1_fst_last (c : Dev nD) (t : Fin cfg1.N) (h3 : t.val % 4 = 3) :
    (outsAt1 V c t.val t.isLt).1 = k1_pay3 (acc1 V c t.val t.isLt) := by
  have h0 : ¬t.val % 4 = 0 := by omega
  refine (congrArg Prod.fst (outsAt1_C V c t h0 h3)).trans ?_
  dsimp only
  rw [out1_C_eq, ← sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h3)]
  exact congrArg k1_pay3 ((congrArg Prod.snd (outsAt1_C V c t h0 h3)).symm.trans (outsAt1_snd V c t.val t.isLt))

end

end Cert.KernelIdeal.Hand

end
-- ==== Proof.KI.Arrays.lean ====
/-
  Each kernel's result array after its region: the two grid points that write back — each core's last tile — write
  the core's block, the two blocks cover the array, so the array ends holding, in core `cc`'s block, the accumulator
  after point 4·cc + 3.
-/
import proofs.«159922_j46213848105408_2_alg».proof.Proof.KI.Values0
import proofs.«159922_j46213848105408_2_alg».proof.Proof.KI.Values1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The projection kernel's result array -/

/-- Core `cc`'s block of the result array is the accumulator after the core's last tile (grid point 4·cc + 3), copied out. -/
def res0 (c : Dev nD) : Buf (Elt F) ((c : Thread nD τ).loc main_v3) := fun i =>
  if (i 0).val = 0 then k0_pay3 (acc0 V c 3 (by rw [show cfg0.N = 8 from N_0]; decide)) (ValueIdx.ix3 (0 : Fin 1) (⟨(i 1).val, (i 1).isLt⟩ : Fin 64) (⟨(i 2).val, (i 2).isLt⟩ : Fin 110))
  else k0_pay3 (acc0 V c 7 (by rw [show cfg0.N = 8 from N_0]; decide)) (ValueIdx.ix3 (0 : Fin 1) (⟨(i 1).val, (i 1).isLt⟩ : Fin 64) (⟨(i 2).val, (i 2).isLt⟩ : Fin 110))

/-- What a writing point writes back is its block of that array. -/
theorem flushed0 (c : Dev nD) (t : Fin cfg0.N) (hf : (cfg0.win 4).flush t = true) :
    (dat0 V c).flushed 4 t = ((cfg0.win 4).blk t).view.read (Elt F) (res0 V c) := by
  have hN : cfg0.N = 8 := N_0
  have h3 : t.val % 4 = 3 := (flush0_4 t).mp hf
  have ht : t = t0_3 ∨ t = t0_7 := by
    have := t.isLt
    rcases (show t.val = 3 ∨ t.val = 7 by omega) with h | h
    · exact Or.inl (Fin.ext h)
    · exact Or.inr (Fin.ext h)
  rcases ht with rfl | rfl
  · show (cfg0.win 4).cut (grid0.coords t0_3) ((dat0 V c).after 4 t0_3) = _
    rw [after0_4, outsAt0_fst_last V c t0_3 rfl]
    funext y
    show k0_pay3 (acc0 V c 3 (by rw [show cfg0.N = 8 from N_0]; decide)) y = res0 V c (((cfg0.win 4).blk t0_3).view.emb y)
    have hy0 : (y 0).val < 1 := (y 0).isLt
    have hy1 : (y 1).val < 64 := (y 1).isLt
    have hy2 : (y 2).val < 110 := (y 2).isLt
    have e0 : ((((cfg0.win 4).blk t0_3).view.emb y) 0).val = 0 := by
      show win0_4.index t0_3 0 * 1 + 1 * (y 0).val = 0
      rw [show win0_4.index t0_3 0 = 0 from by decide +kernel]; omega
    unfold res0
    rw [if_pos e0]
    refine congrArg (k0_pay3 (acc0 V c 3 (by rw [show cfg0.N = 8 from N_0]; decide))) (funext fun a => Fin.ext ?_)
    match a with
    | ⟨0, _⟩ => show (y 0).val = 0; omega
    | ⟨1, _⟩ => show (y 1).val = win0_4.index t0_3 1 * 64 + 1 * (y 1).val; rw [show win0_4.index t0_3 1 = 0 from by decide +kernel]; omega
    | ⟨2, _⟩ => show (y 2).val = win0_4.index t0_3 2 * 110 + 1 * (y 2).val; rw [show win0_4.index t0_3 2 = 0 from by decide +kernel]; omega
  · show (cfg0.win 4).cut (grid0.coords t0_7) ((dat0 V c).after 4 t0_7) = _
    rw [after0_4, outsAt0_fst_last V c t0_7 rfl]
    funext y
    show k0_pay3 (acc0 V c 7 (by rw [show cfg0.N = 8 from N_0]; decide)) y = res0 V c (((cfg0.win 4).blk t0_7).view.emb y)
    have hy0 : (y 0).val < 1 := (y 0).isLt
    have hy1 : (y 1).val < 64 := (y 1).isLt
    have hy2 : (y 2).val < 110 := (y 2).isLt
    have e0 : ((((cfg0.win 4).blk t0_7).view.emb y) 0).val = 1 := by
      show win0_4.index t0_7 0 * 1 + 1 * (y 0).val = 1
      rw [show win0_4.index t0_7 0 = 1 from by decide +kernel]; omega
    unfold res0
    rw [if_neg (by rw [e0]; decide)]
    refine congrArg (k0_pay3 (acc0 V c 7 (by rw [show cfg0.N = 8 from N_0]; decide))) (funext fun a => Fin.ext ?_)
    match a with
    | ⟨0, _⟩ => show (y 0).val = 0; omega
    | ⟨1, _⟩ => show (y 1).val = win0_4.index t0_7 1 * 64 + 1 * (y 1).val; rw [show win0_4.index t0_7 1 = 0 from by decide +kernel]; omega
    | ⟨2, _⟩ => show (y 2).val = win0_4.index t0_7 2 * 110 + 1 * (y 2).val; rw [show win0_4.index t0_7 2 = 0 from by decide +kernel]; omega

/-- The two writing points' blocks cover the array, so it ends holding `res0`. -/
theorem final0 (c : Dev nD) : (dat0 V c).arrAt 4 cfg0.N = res0 V c :=
  (dat0 V c).arrAt_eq_of_cover 4 (res0 V c) (flushed0 V c) fun i => by
    have h0 : (i 0 : Nat) < 2 := (i 0).isLt
    have h1 : (i 1 : Nat) < 64 := (i 1).isLt
    have h2 : (i 2 : Nat) < 110 := (i 2).isLt
    by_cases hc : (i 0 : Nat) = 0
    · refine ⟨t0_3, (flush0_4 t0_3).mpr rfl, ?_⟩
      show i ∈ ((View.whole main_v3).slice (win0_4.rect t0_3)).set
      rw [View.set_slice_whole, Rect.mem_set_unit]
      intro a
      match a with
      | ⟨0, _⟩ => show win0_4.index t0_3 0 * win0_4.size 0 ≤ (i 0 : Nat) ∧ (i 0 : Nat) < win0_4.index t0_3 0 * win0_4.size 0 + win0_4.xsize (grid0.coords t0_3) 0
                  rw [show win0_4.index t0_3 0 * win0_4.size 0 = 0 from by decide +kernel, show win0_4.xsize (grid0.coords t0_3) 0 = 1 from by decide +kernel]; omega
      | ⟨1, _⟩ => show win0_4.index t0_3 1 * win0_4.size 1 ≤ (i 1 : Nat) ∧ (i 1 : Nat) < win0_4.index t0_3 1 * win0_4.size 1 + win0_4.xsize (grid0.coords t0_3) 1
                  rw [show win0_4.index t0_3 1 * win0_4.size 1 = 0 from by decide +kernel, show win0_4.xsize (grid0.coords t0_3) 1 = 64 from by decide +kernel]; omega
      | ⟨2, _⟩ => show win0_4.index t0_3 2 * win0_4.size 2 ≤ (i 2 : Nat) ∧ (i 2 : Nat) < win0_4.index t0_3 2 * win0_4.size 2 + win0_4.xsize (grid0.coords t0_3) 2
                  rw [show win0_4.index t0_3 2 * win0_4.size 2 = 0 from by decide +kernel, show win0_4.xsize (grid0.coords t0_3) 2 = 110 from by decide +kernel]; omega
    · refine ⟨t0_7, (flush0_4 t0_7).mpr rfl, ?_⟩
      show i ∈ ((View.whole main_v3).slice (win0_4.rect t0_7)).set
      rw [View.set_slice_whole, Rect.mem_set_unit]
      intro a
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 1 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 64 from by decide +kernel]; omega
      | ⟨2, _⟩ => show win0_4.index t0_7 2 * win0_4.size 2 ≤ (i 2 : Nat) ∧ (i 2 : Nat) < win0_4.index t0_7 2 * win0_4.size 2 + win0_4.xsize (grid0.coords t0_7) 2
                  rw [show win0_4.index t0_7 2 * win0_4.size 2 = 0 from by decide +kernel, show win0_4.xsize (grid0.coords t0_7) 2 = 110 from by decide +kernel]; omega

/-! ## The reconstruction kernel's result array -/

/-- Core `cc`'s block of the result array is the accumulator after the core's last tile (grid point 4·cc + 3), copied out. -/
def res1 (c : Dev nD) : Buf (Elt F) ((c : Thread nD τ).loc main_v5) := fun i =>
  if (i 0).val = 0 then k1_pay3 (acc1 V c 3 (by rw [show cfg1.N = 8 from N_1]; decide)) (ValueIdx.ix3 (0 : Fin 1) (⟨(i 1).val, (i 1).isLt⟩ : Fin 1) (⟨(i 2).val, (i 2).isLt⟩ : Fin 1))
  else k1_pay3 (acc1 V c 7 (by rw [show cfg1.N = 8 from N_1]; decide)) (ValueIdx.ix3 (0 : Fin 1) (⟨(i 1).val, (i 1).isLt⟩ : Fin 1) (⟨(i 2).val, (i 2).isLt⟩ : Fin 1))

/-- What a writing point writes back is its block of that array. -/
theorem flushed1 (c : Dev nD) (t : Fin cfg1.N) (hf : (cfg1.win 3).flush t = true) :
    (dat1 V c).flushed 3 t = ((cfg1.win 3).blk t).view.read (Elt F) (res1 V c) := by
  have hN : cfg1.N = 8 := N_1
  have h3 : t.val % 4 = 3 := (flush1_3 t).mp hf
  have ht : t = t1_3 ∨ t = t1_7 := by
    have := t.isLt
    rcases (show t.val = 3 ∨ t.val = 7 by omega) with h | h
    · exact Or.inl (Fin.ext h)
    · exact Or.inr (Fin.ext h)
  rcases ht with rfl | rfl
  · show (cfg1.win 3).cut (grid1.coords t1_3) ((dat1 V c).after 3 t1_3) = _
    rw [after1_3, outsAt1_fst_last V c t1_3 rfl]
    funext y
    show k1_pay3 (acc1 V c 3 (by rw [show cfg1.N = 8 from N_1]; decide)) y = res1 V c (((cfg1.win 3).blk t1_3).view.emb y)
    have hy0 : (y 0).val < 1 := (y 0).isLt
    have hy1 : (y 1).val < 1 := (y 1).isLt
    have hy2 : (y 2).val < 1 := (y 2).isLt
    have e0 : ((((cfg1.win 3).blk t1_3).view.emb y) 0).val = 0 := by
      show win1_3.index t1_3 0 * 1 + 1 * (y 0).val = 0
      rw [show win1_3.index t1_3 0 = 0 from by decide +kernel]; omega
    unfold res1
    rw [if_pos e0]
    refine congrArg (k1_pay3 (acc1 V c 3 (by rw [show cfg1.N = 8 from N_1]; decide))) (funext fun a => Fin.ext ?_)
    match a with
    | ⟨0, _⟩ => show (y 0).val = 0; omega
    | ⟨1, _⟩ => show (y 1).val = win1_3.index t1_3 1 * 1 + 1 * (y 1).val; rw [show win1_3.index t1_3 1 = 0 from by decide +kernel]; omega
    | ⟨2, _⟩ => show (y 2).val = win1_3.index t1_3 2 * 1 + 1 * (y 2).val; rw [show win1_3.index t1_3 2 = 0 from by decide +kernel]; omega
  · show (cfg1.win 3).cut (grid1.coords t1_7) ((dat1 V c).after 3 t1_7) = _
    rw [after1_3, outsAt1_fst_last V c t1_7 rfl]
    funext y
    show k1_pay3 (acc1 V c 7 (by rw [show cfg1.N = 8 from N_1]; decide)) y = res1 V c (((cfg1.win 3).blk t1_7).view.emb y)
    have hy0 : (y 0).val < 1 := (y 0).isLt
    have hy1 : (y 1).val < 1 := (y 1).isLt
    have hy2 : (y 2).val < 1 := (y 2).isLt
    have e0 : ((((cfg1.win 3).blk t1_7).view.emb y) 0).val = 1 := by
      show win1_3.index t1_7 0 * 1 + 1 * (y 0).val = 1
      rw [show win1_3.index t1_7 0 = 1 from by decide +kernel]; omega
    unfold res1
    rw [if_neg (by rw [e0]; decide)]
    refine congrArg (k1_pay3 (acc1 V c 7 (by rw [show cfg1.N = 8 from N_1]; decide))) (funext fun a => Fin.ext ?_)
    match a with
    | ⟨0, _⟩ => show (y 0).val = 0; omega
    | ⟨1, _⟩ => show (y 1).val = win1_3.index t1_7 1 * 1 + 1 * (y 1).val; rw [show win1_3.index t1_7 1 = 0 from by decide +kernel]; omega
    | ⟨2, _⟩ => show (y 2).val = win1_3.index t1_7 2 * 1 + 1 * (y 2).val; rw [show win1_3.index t1_7 2 = 0 from by decide +kernel]; omega

/-- The two writing points' blocks cover the array, so it ends holding `res1`. -/
theorem final1 (c : Dev nD) : (dat1 V c).arrAt 3 cfg1.N = res1 V c :=
  (dat1 V c).arrAt_eq_of_cover 3 (res1 V c) (flushed1 V c) fun i => by
    have h0 : (i 0 : Nat) < 2 := (i 0).isLt
    have h1 : (i 1 : Nat) < 1 := (i 1).isLt
    have h2 : (i 2 : Nat) < 1 := (i 2).isLt
    by_cases hc : (i 0 : Nat) = 0
    · refine ⟨t1_3, (flush1_3 t1_3).mpr rfl, ?_⟩
      show i ∈ ((View.whole main_v5).slice (win1_3.rect t1_3)).set
      rw [View.set_slice_whole, Rect.mem_set_unit]
      intro a
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega
      | ⟨2, _⟩ => show win1_3.index t1_3 2 * win1_3.size 2 ≤ (i 2 : Nat) ∧ (i 2 : Nat) < win1_3.index t1_3 2 * win1_3.size 2 + win1_3.xsize (grid1.coords t1_3) 2
                  rw [show win1_3.index t1_3 2 * win1_3.size 2 = 0 from by decide +kernel, show win1_3.xsize (grid1.coords t1_3) 2 = 1 from by decide +kernel]; omega
    · refine ⟨t1_7, (flush1_3 t1_7).mpr rfl, ?_⟩
      show i ∈ ((View.whole main_v5).slice (win1_3.rect t1_7)).set
      rw [View.set_slice_whole, Rect.mem_set_unit]
      intro a
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 1 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega
      | ⟨2, _⟩ => show win1_3.index t1_7 2 * win1_3.size 2 ≤ (i 2 : Nat) ∧ (i 2 : Nat) < win1_3.index t1_7 2 * win1_3.size 2 + win1_3.xsize (grid1.coords t1_7) 2
                  rw [show win1_3.index t1_7 2 * win1_3.size 2 = 0 from by decide +kernel, show win1_3.xsize (grid1.coords t1_7) 2 = 1 from by decide +kernel]; omega

end

end Cert.KernelIdeal.Hand

end
-- ==== Proof.KI.Run.lean ====
/-
  The whole run: @main is a stretch of host operations (three reshapes), the projection kernel's region, a stretch (a
  constant and the sum of the two cores' partial projections), the reconstruction kernel's region, and a last stretch
  (the sum of the two cores' totals, a constant, the division). The buffers' contents at each boundary are a fold from
  the launch memory — a host stretch applies its operations, a region leaves each of its arrays at what its
  write-backs leave and every other buffer as it found it. Every weakly fair execution terminates, nothing faulting,
  with every unscoped buffer at the last boundary's contents; the argument arrays, which nothing writes, are there as
  launched.
-/
import proofs.«159922_j46213848105408_2_alg».proof.Proof.KI.Region0
import proofs.«159922_j46213848105408_2_alg».proof.Proof.KI.Region1
import proofs.«159922_j46213848105408_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### No item writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m ρ c) ∗ ∃ r, prngReg c r)

/-- The class invariant from the generator register, anything, and the scoped rest; and back. -/
theorem PhiA0_in (c : Dev nD) (Q : sProp 𝕄) :
    (iprop((∃ r, prngReg c r) ∗ Q ∗ Pipeline.scopedRest spec0 c) : sProp 𝕄) ⊢ Pipeline.ΦA spec0 c := by
  unfold Pipeline.ΦA
  iintro ⟨Hp, -, Hr⟩
  isplitl [Hr]; · iexact Hr
  iexact Hp
theorem PhiA0_out (c : Dev nD) :
    (Pipeline.ΦA spec0 c : sProp 𝕄) ⊢ iprop((∃ r, prngReg c r) ∗ (BI.emp : sProp 𝕄) ∗ Pipeline.scopedRest spec0 c) := by
  unfold Pipeline.ΦA
  iintro ⟨Hr, Hp⟩
  isplitl [Hp]; · iexact Hp
  isplitr; · iempintro
  iexact Hr
theorem PhiA1_in (c : Dev nD) (Q : sProp 𝕄) :
    (iprop((∃ r, prngReg c r) ∗ Q ∗ Pipeline.scopedRest spec1 c) : sProp 𝕄) ⊢ Pipeline.ΦA spec1 c := by
  unfold Pipeline.ΦA
  iintro ⟨Hp, -, Hr⟩
  isplitl [Hr]; · iexact Hr
  iexact Hp
theorem PhiA1_out (c : Dev nD) :
    (Pipeline.ΦA spec1 c : sProp 𝕄) ⊢ iprop((∃ r, prngReg c r) ∗ (BI.emp : sProp 𝕄) ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- The projection kernel's region as a segment: entered from every unscoped buffer at `W1`, left at `W2`; its arrays
    split out of the unscoped buffers and put back at what the write-backs leave; the generator register and the scoped
    rest into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c _).trans (hin0 (V1 m ρ) c)
  hout c := by
    rw [Pipeline.ownSems0_none]
    exact (hout0 (V1 m ρ) c).trans (PhiA0_out c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reconstruction kernel's region as a segment: entered from every unscoped buffer at `W3`, left at `W4`; its arrays
    split out of the unscoped buffers and put back at what the write-backs leave; the generator register and the scoped
    rest into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA1_in c _).trans (hin1 (V3 m ρ) c)
  hout c := by
    rw [Pipeline.ownSems0_none]
    exact (hout1 (V3 m ρ) c).trans (PhiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m ρ c)) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Hand

end
-- ==== Proof.KI.Hosts.lean ====
/-
  What the host stretches leave: the three flattened arguments after the first stretch; the sum of the two cores'
  partial projections after the second; the division of the sum of the two cores' totals after the third; and that
  the buffers a stretch or a region does not write keep their contents.
-/
import proofs.«159922_j46213848105408_2_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo in
section
variable (m : (ℓ : Loc nD τ sig) → Buf (Elt F) ℓ) (ρ : Dev nD → PrngReg)

/-! ## After the first stretch: the flattened arguments -/

theorem V1_v0 (c : Dev nD) : V1 m ρ c main_v0
    = shapeCast S64x65536 (m ((c : Thread nD τ).loc main_arg0)) shapeCasts_S8x8x256x256_S64x65536 := by
  show StableHlo.after hostOps0 (W0 m ρ c) (Proc.devRef .tc main_v0) = _
  after_results; rfl
theorem V1_v1 (c : Dev nD) : V1 m ρ c main_v1
    = shapeCast S64x65536 (m ((c : Thread nD τ).loc main_arg1)) shapeCasts_S8x8x256x256_S64x65536 := by
  show StableHlo.after hostOps0 (W0 m ρ c) (Proc.devRef .tc main_v1) = _
  after_results; rfl
theorem V1_v2 (c : Dev nD) : V1 m ρ c main_v2
    = shapeCast S64x65536 (m ((c : Thread nD τ).loc main_arg2)) shapeCasts_S8x8x256x256_S64x65536 := by
  show StableHlo.after hostOps0 (W0 m ρ c) (Proc.devRef .tc main_v2) = _
  after_results; rfl
theorem V1_arg4 (c : Dev nD) : V1 m ρ c main_arg4 = m ((c : Thread nD τ).loc main_arg4) :=
  StableHlo.after_of_writes_sub hostOps0 _ hostOps0_writes (by decide : main_arg4 ∉ hostOps0_W)

/-! ## After the projection kernel's region and the second stretch -/

/-- The flattened mask is still there: the region only reads it, the stretch does not write it. -/
theorem V3_v2 (c : Dev nD) : V3 m ρ c main_v2 = V1 m ρ c main_v2 :=
  (StableHlo.after_of_writes_sub hostOps1 _ hostOps1_writes (by decide : main_v2 ∉ hostOps1_W)).trans
    ((W2_arr m ρ c 3).trans (((dat0 (V1 m ρ) c).arrAt_in 3 rfl _).trans (A_eq0 (V1 m ρ) c 3)))
theorem V3_arg3 (c : Dev nD) : V3 m ρ c main_arg3 = m ((c : Thread nD τ).loc main_arg3) :=
  (StableHlo.after_of_writes_sub hostOps1 _ hostOps1_writes (by decide : main_arg3 ∉ hostOps1_W)).trans
    ((W2_of_ne m ρ c main_arg3 (by decide)).trans
      (StableHlo.after_of_writes_sub hostOps0 _ hostOps0_writes (by decide : main_arg3 ∉ hostOps0_W)))
/-- The projection: the two cores' parts summed from zero. -/
theorem V3_v4 (c : Dev nD) : V3 m ρ c main_v4
    = Host.reduceAdd ((dat0 (V1 m ρ) c).arrAt 4 cfg0.N) (constant (F := F) S_ .f32 0x00000000#32) reducesTo_S2x64x110_S64x110_d0 h_S_ := by
  show StableHlo.after hostOps1 (W2 m ρ c) (Proc.devRef .tc main_v4) = _
  after_results
  rw [show W2 m ρ c (Proc.devRef .tc main_v3) = (dat0 (V1 m ρ) c).arrAt 4 cfg0.N from W2_arr m ρ c 4]

/-! ## After the reconstruction kernel's region and the last stretch -/

theorem W5_v7 (c : Dev nD) : W5 m ρ c (Proc.devRef .tc main_v7)
    = Host.divf (Host.reduceAdd ((dat1 (V3 m ρ) c).arrAt 3 cfg1.N) (constant (F := F) S_ .f32 0x00000000#32) reducesTo_S2x1x1_S_d0_1_2 h_S_)
        (constant (F := F) S_ .f32 0x4A800000#32) := by
  show StableHlo.after hostOps2 (W4 m ρ c) (Proc.devRef .tc main_v7) = _
  after_results
  rw [show W4 m ρ c (Proc.devRef .tc main_v5) = (dat1 (V3 m ρ) c).arrAt 3 cfg1.N from W4_arr m ρ c 3]

end

end Cert.KernelIdeal.Hand

end
-- ==== Proof.KI.Blocks.lean ====
/-
  Each input window's block at a grid point, read at its local coordinates, is the region's array read at the global
  ones: tile `t` of a [·, 65536] array holds its columns `8192·t + j`, tile `t` of the [65536, 110] basis its rows
  `8192·t + j`; the projection, a single block, is read where it lies.
-/
import proofs.«159922_j46213848105408_2_alg».proof.Proof.KI.Common
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where each window's block lies: the projection kernel's four inputs are tiled along their second axis. -/
theorem idxs0 : ∀ t : Fin cfg0.N, win0_0.index t 0 = 0 ∧ win0_0.index t 1 = t.val ∧ win0_1.index t 0 = 0 ∧ win0_1.index t 1 = t.val
    ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = t.val ∧ win0_1.index t 0 = 0 ∧ win0_1.index t 1 = t.val
    ∧ win0_2.index t 0 = 0 ∧ win0_2.index t 1 = t.val ∧ win0_3.index t 0 = 0 ∧ win0_3.index t 1 = t.val)

/-- The reconstruction kernel's: the projection whole, the basis tiled along its rows, the mask along its columns. -/
theorem idxs1 : ∀ t : Fin cfg1.N, win1_0.index t 0 = 0 ∧ win1_0.index t 1 = 0 ∧ win1_1.index t 0 = t.val ∧ win1_1.index t 1 = 0
    ∧ win1_2.index t 0 = 0 ∧ win1_2.index t 1 = t.val :=
  (by decide +kernel : ∀ t : Fin grid1.N, win1_0.index t 0 = 0 ∧ win1_0.index t 1 = 0 ∧ win1_1.index t 0 = t.val ∧ win1_1.index t 1 = 0
    ∧ win1_2.index t 0 = 0 ∧ win1_2.index t 1 = t.val)

section
variable (V : (c : Dev nD) → (b : Ref sig .tc) → Buf (Elt F) ((c : Thread nD τ).loc b))

theorem iblk0_0_at (c : Dev nD) (t : Fin cfg0.N) (k : Fin 110) (j : Fin 8192) (n : Fin 65536) (hn : n.val = 8192 * t.val + j.val) :
    (iblk0 V c 0 t : Vec F S110x8192 .f32) (ValueIdx.ix2 k j) = V c main_arg4 (ValueIdx.ix2 k n) := by
  unfold iblk0
  rw [View.read_apply]
  show V c main_arg4 _ = V c main_arg4 _
  refine congrArg (V c main_arg4) (funext fun a => Fin.ext ?_)
  match a with
  | ⟨0, _⟩ => show win0_0.index t 0 * 110 + 1 * k.val = k.val; rw [(idxs0 t).1]; omega
  | ⟨1, _⟩ => show win0_0.index t 1 * 8192 + 1 * j.val = n.val; rw [(idxs0 t).2.1, hn]; omega

theorem iblk0_1_at (c : Dev nD) (t : Fin cfg0.N) (r : Fin 64) (j : Fin 8192) (n : Fin 65536) (hn : n.val = 8192 * t.val + j.val) :
    (iblk0 V c 1 t : Vec F S64x8192 .f32) (ValueIdx.ix2 r j) = V c main_v0 (ValueIdx.ix2 r n) := by
  unfold iblk0
  rw [View.read_apply]
  show V c main_v0 _ = V c main_v0 _
  refine congrArg (V c main_v0) (funext fun a => Fin.ext ?_)
  match a with
  | ⟨0, _⟩ => show win0_1.index t 0 * 64 + 1 * r.val = r.val; rw [(idxs0 t).2.2.1]; omega
  | ⟨1, _⟩ => show win0_1.index t 1 * 8192 + 1 * j.val = n.val; rw [(idxs0 t).2.2.2.1, hn]; omega

theorem iblk0_2_at (c : Dev nD) (t : Fin cfg0.N) (r : Fin 64) (j : Fin 8192) (n : Fin 65536) (hn : n.val = 8192 * t.val + j.val) :
    (iblk0 V c 2 t : Vec F S64x8192 .f32) (ValueIdx.ix2 r j) = V c main_v1 (ValueIdx.ix2 r n) := by
  unfold iblk0
  rw [View.read_apply]
  show V c main_v1 _ = V c main_v1 _
  refine congrArg (V c main_v1) (funext fun a => Fin.ext ?_)
  match a with
  | ⟨0, _⟩ => show win0_2.index t 0 * 64 + 1 * r.val = r.val; rw [(idxs0 t).2.2.2.2.1]; omega
  | ⟨1, _⟩ => show win0_2.index t 1 * 8192 + 1 * j.val = n.val; rw [(idxs0 t).2.2.2.2.2.1, hn]; omega

theorem iblk0_3_at (c : Dev nD) (t : Fin cfg0.N) (r : Fin 64) (j : Fin 8192) (n : Fin 65536) (hn : n.val = 8192 * t.val + j.val) :
    (iblk0 V c 3 t : Vec F S64x8192 .i32) (ValueIdx.ix2 r j) = V c main_v2 (ValueIdx.ix2 r n) := by
  unfold iblk0
  rw [View.read_apply]
  show V c main_v2 _ = V c main_v2 _
  refine congrArg (V c main_v2) (funext fun a => Fin.ext ?_)
  match a with
  | ⟨0, _⟩ => show win0_3.index t 0 * 64 + 1 * r.val = r.val; rw [(idxs0 t).2.2.2.2.2.2.1]; omega
  | ⟨1, _⟩ => show win0_3.index t 1 * 8192 + 1 * j.val = n.val; rw [(idxs0 t).2.2.2.2.2.2.2, hn]; omega

theorem iblk1_0_at (c : Dev nD) (t : Fin cfg1.N) (r : Fin 64) (k : Fin 110) :
    (iblk1 V c 0 t : Vec F S64x110 .f32) (ValueIdx.ix2 r k) = V c main_v4 (ValueIdx.ix2 r k) := by
  unfold iblk1
  rw [View.read_apply]
  show V c main_v4 _ = V c main_v4 _
  refine congrArg (V c main_v4) (funext fun a => Fin.ext ?_)
  match a with
  | ⟨0, _⟩ => show win1_0.index t 0 * 64 + 1 * r.val = r.val; rw [(idxs1 t).1]; omega
  | ⟨1, _⟩ => show win1_0.index t 1 * 110 + 1 * k.val = k.val; rw [(idxs1 t).2.1]; omega

theorem iblk1_1_at (c : Dev nD) (t : Fin cfg1.N) (j : Fin 8192) (k : Fin 110) (n : Fin 65536) (hn : n.val = 8192 * t.val + j.val) :
    (iblk1 V c 1 t : Vec F S8192x110 .f32) (ValueIdx.ix2 j k) = V c main_arg3 (ValueIdx.ix2 n k) := by
  unfold iblk1
  rw [View.read_apply]
  show V c main_arg3 _ = V c main_arg3 _
  refine congrArg (V c main_arg3) (funext fun a => Fin.ext ?_)
  match a with
  | ⟨0, _⟩ => show win1_1.index t 0 * 8192 + 1 * j.val = n.val; rw [(idxs1 t).2.2.1, hn]; omega
  | ⟨1, _⟩ => show win1_1.index t 1 * 110 + 1 * k.val = k.val; rw [(idxs1 t).2.2.2.1]; omega

theorem iblk1_2_at (c : Dev nD) (t : Fin cfg1.N) (r : Fin 64) (j : Fin 8192) (n : Fin 65536) (hn : n.val = 8192 * t.val + j.val) :
    (iblk1 V c 2 t : Vec F S64x8192 .i32) (ValueIdx.ix2 r j) = V c main_v2 (ValueIdx.ix2 r n) := by
  unfold iblk1
  rw [View.read_apply]
  show V c main_v2 _ = V c main_v2 _
  refine congrArg (V c main_v2) (funext fun a => Fin.ext ?_)
  match a with
  | ⟨0, _⟩ => show win1_2.index t 0 * 64 + 1 * r.val = r.val; rw [(idxs1 t).2.2.2.2.1]; omega
  | ⟨1, _⟩ => show win1_2.index t 1 * 8192 + 1 * j.val = n.val; rw [(idxs1 t).2.2.2.2.2, hn]; omega

end

end Cert.KernelIdeal.Hand

end
-- ==== Proof.Inputs.lean ====
/-
  The arguments as functions of plain coordinates.

  A [8, 8, 256, 256] array is read one row per (batch, channel) pair and one column per pixel: row `r = 8·b + c`,
  column `n = 256·h + w` — the row-major flattening both programs apply before anything else. The integer mask is
  read as the real number it denotes (signed), which is what a conversion to a float is at the ideal values.
-/
import Idealize.ShloMosaic.Lib.ValueIdx
import Idealize.ShloMosaic.PureOps.Ideal

noncomputable section

namespace Cert.Inputs

open Idealize.ShloMosaic Idealize.ShloMosaic.ValueIdx

/-- The four coordinates of row `r`, column `n`. -/
def at4 (r : Fin 64) (n : Fin 65536) : (⟨4, ![8, 8, 256, 256]⟩ : Shape).Idx :=
  ix4 (⟨r.val / 8, by have := r.isLt; omega⟩ : Fin 8) (⟨r.val % 8, Nat.mod_lt _ (by decide)⟩ : Fin 8)
    (⟨n.val / 256, by have := n.isLt; omega⟩ : Fin 256) (⟨n.val % 256, Nat.mod_lt _ (by decide)⟩ : Fin 256)

/-- A four-axis array read at row `r`, column `n` of its flattening. -/
def flat {α : Type} (x : (⟨4, ![8, 8, 256, 256]⟩ : Shape).Idx → α) (r : Fin 64) (n : Fin 65536) : α := x (at4 r n)

/-- The mask at row `r`, column `n`, as the real number its word denotes. -/
def maskReal (x : (⟨4, ![8, 8, 256, 256]⟩ : Shape).Idx → BitVec 32) (r : Fin 64) (n : Fin 65536) : EReal :=
  (((flat x r n).toInt : ℝ) : EReal)

/-- A matrix read at its two coordinates. -/
def mat {α : Type} {a b : Nat} (x : (⟨2, ![a, b]⟩ : Shape).Idx → α) (i : Fin a) (j : Fin b) : α := x (ix2 i j)

end Cert.Inputs

end
-- ==== Proof.LibRowDot.lean ====
/-
  A product of rows against rows, read at an index, generic in the three extents.

  For the dimension numbers "rows × contraction times columns × contraction" (`DotDims.transposedRhs M K N`: no batch
  axis, both operands contracted on their last axis), at the ideal values — floats extended reals, every operation
  exact — a matrix product into the zero accumulator, read at the output index (r, c), is the plain sum over k of
  lhs (r, k) · rhs (c, k): row r of the left operand against row c of the right one. The contraction index, a
  one-axis multi-index, is re-indexed by its one coordinate.
-/
import Idealize.ShloMosaic.Lib.ValueIdx
import Idealize.ShloMosaic.PureOps.Ideal.Laws

noncomputable section

namespace Cert.Lib.RowDot

open Idealize.ShloMosaic Idealize.ShloMosaic.ValueIdx

variable {M K N : Nat}

/-- The left operand's index at output index (r, c) and contraction position k is (r, k). -/
theorem lhsIdx_rows (r : Fin M) (c : Fin N) (k : Fin K) :
    (DotDims.transposedRhs M K N).lhsIdx (ix2 r c) ((contrEquiv1 (DotDims.transposedRhs M K N) K rfl rfl).symm k) = ix2 r k := by
  have hk := contrEquiv1_symm_val (DotDims.transposedRhs M K N) K rfl rfl k
  exact funext fun a => Fin.ext (by
    match a with
    | ⟨0, _⟩ => rfl
    | ⟨1, _⟩ => exact ((DotDims.transposedRhs M K N).lhsIdx_val_of_single rfl _ _).trans hk)

/-- The right operand's index at output index (r, c) and contraction position k is (c, k). -/
theorem rhsIdx_rows (r : Fin M) (c : Fin N) (k : Fin K) :
    (DotDims.transposedRhs M K N).rhsIdx (ix2 r c) ((contrEquiv1 (DotDims.transposedRhs M K N) K rfl rfl).symm k) = ix2 c k := by
  have hk := contrEquiv1_symm_val (DotDims.transposedRhs M K N) K rfl rfl k
  exact funext fun a => Fin.ext (by
    match a with
    | ⟨0, _⟩ => rfl
    | ⟨1, _⟩ => exact ((DotDims.transposedRhs M K N).rhsIdx_val_of_single rfl _ _).trans hk)

/-- A rows-against-rows matrix product into the zero accumulator, at the ideal values, read at (r, c):
    the sum over k of lhs (r, k) · rhs (c, k). -/
theorem matmul_rows_zero_apply {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  rw [lhsIdx_rows, rhsIdx_rows]

end Cert.Lib.RowDot

end
-- ==== Proof.Payloads.lean ====
/-
  The two kernels' arithmetic at the ideal values, read at an index.

  At the ideal values a float is an extended real, every operation is the exact one and a change of float format is
  the identity. Each value a kernel body stores is then an explicit function of the blocks the body loaded:

  * the projection kernel adds to its accumulator, at (r, k), the sum over the block's pixels j of the masked
    difference (y_pred − y)(r, j) · mask(r, j) times the pseudo-inverse at (k, j) — the matrix product contracts both
    operands on their last axis, into a zero accumulator;
  * the reconstruction kernel adds to its one-entry accumulator the sum over rows r and the block's pixels j of the
    square of the masked reconstruction (∑ k, proj(r, k) · A(j, k)) · mask(r, j): a sum over the pixel axis, a cast of
    the 64 row sums to a column, and a sum over that column;
  * the first store of each kernel writes zeros, and the last one copies the accumulator under a leading axis of
    extent one.

  The integer mask enters through the exact conversion of a signed word to a real number.
-/
import proofs.«159922_j46213848105408_2_alg».proof.Proof.Gen.KernelIdeal.Skeleton
import proofs.«159922_j46213848105408_2_alg».proof.Proof.Inputs
import proofs.«159922_j46213848105408_2_alg».proof.Proof.LibRowDot
import Idealize.ShloMosaic.Lib.ValueIdx
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-- The projection kernel's first store writes the zero array. -/
theorem k0_pay1_apply (r : Fin 64) (k : Fin 110) : k0_pay1 (F := Ideal) (ix2 r k) = 0 := by
  unfold k0_pay1
  rw [shapeCast_self]
  exact Ideal.ofBits_zero_f32

/-- The reconstruction kernel's first store writes zero. -/
theorem k1_pay1_apply : k1_pay1 (F := Ideal) (ix2 (0 : Fin 1) (0 : Fin 1)) = 0 := by
  unfold k1_pay1
  rw [shapeCast_self]
  exact Ideal.ofBits_zero_f32

/-- The projection kernel's last store copies the accumulator under a leading axis of extent one. -/
theorem k0_pay3_apply (v24 : Vec Ideal S64x110 .f32) (r : Fin 64) (k : Fin 110) :
    k0_pay3 (F := Ideal) v24 (ix3 (0 : Fin 1) r k) = v24 (ix2 r k) := by
  unfold k0_pay3
  exact shapeCast_apply v24 _ (ix3 (0 : Fin 1) r k) (ix2 r k) (by
    rw [Shape.rowMajor_val_three, Shape.rowMajor_val_two]
    show r.val * 110 + k.val = ((0 : Nat) * 64 + r.val) * 110 + k.val
    rw [Nat.zero_mul, Nat.zero_add])

/-- The reconstruction kernel's last store copies its one-entry accumulator under a leading axis of extent one. -/
theorem k1_pay3_apply (v26 : Vec Ideal S1x1 .f32) :
    k1_pay3 (F := Ideal) v26 (ix3 (0 : Fin 1) (0 : Fin 1) (0 : Fin 1)) = v26 (ix2 (0 : Fin 1) (0 : Fin 1)) := by
  unfold k1_pay3
  exact shapeCast_apply v26 _ (ix3 (0 : Fin 1) (0 : Fin 1) (0 : Fin 1)) (ix2 (0 : Fin 1) (0 : Fin 1)) (by
    rw [Shape.rowMajor_val_three, Shape.rowMajor_val_two]
    rfl)

/-- The projection kernel's accumulation, at (r, k): the accumulator plus the sum over the block's pixels of the masked
    difference at (r, j) times the pseudo-inverse at (k, j). -/
theorem k0_pay2_apply (v3 : Vec Ideal S64x8192 .i32) (v6 v8 : Vec Ideal S64x8192 .f32) (v13 : Vec Ideal S110x8192 .f32)
    (v15 : Vec Ideal S64x110 .f32) (r : Fin 64) (k : Fin 110) :
    k0_pay2 (F := Ideal) v3 v6 v8 v13 v15 (ix2 r k)
      = v15 (ix2 r k) + ∑ j : Fin 8192,
          ((v6 (ix2 r j) - v8 (ix2 r j)) * (((v3 (ix2 r j)).toInt : ℝ) : EReal)) * v13 (ix2 k j) := by
  unfold k0_pay2
  simp only [shapeCast_self]
  refine congrArg (v15 (ix2 r k) + ·) ?_
  refine (Cert.Lib.RowDot.matmul_rows_zero_apply (M := 64) (K := 8192) (N := 110) none _ _ r k).trans ?_
  rfl

/-- A sum over the pixel axis of a [64, 8192] array, read at row r: the sum over the row. -/
theorem pixelSum_apply (x : FVec Ideal S64x8192 .f32) (h : S64x8192.Reduces [1] S64) (hφ : FKind.Formats .f32)
    (hacc : (0x00000000#32 : BitVec 32) = FKind.add.neutral .f32 hφ) (r : Fin 64) :
    multiReduction .add [1] S64 x 0x00000000#32 h hφ hacc (ix1 r) = ∑ j : Fin 8192, x (ix2 r j) :=
  (Ideal.multiReduction_add_single x 0x00000000#32 h hφ hacc (ix1 r)).trans
    (Finset.sum_congr rfl fun j _ => congrArg x (funext fun a => Fin.ext (by
      match a with
      | ⟨0, _⟩ => rfl
      | ⟨1, _⟩ => rfl)))

/-- A sum over the row axis of a [64, 1] column, read at its one entry: the sum over the column. -/
theorem columnSum_apply (x : FVec Ideal S64x1 .f32) (h : S64x1.Reduces [0] S1) (hφ : FKind.Formats .f32)
    (hacc : (0x00000000#32 : BitVec 32) = FKind.add.neutral .f32 hφ) :
    multiReduction .add [0] S1 x 0x00000000#32 h hφ hacc (ix1 (0 : Fin 1)) = ∑ r : Fin 64, x (ix2 r (0 : Fin 1)) :=
  (Ideal.multiReduction_add_single x 0x00000000#32 h hφ hacc (ix1 (0 : Fin 1))).trans
    (Finset.sum_congr rfl fun r _ => congrArg x (funext fun a => Fin.ext (by
      match a with
      | ⟨0, _⟩ => rfl
      | ⟨1, _⟩ => rfl)))

/-- A vector [64] cast to a column [64, 1], read at (r, 0), is the vector at r. -/
theorem column_apply {α : Type} (x : S64.Idx → α) (h : S64.ShapeCasts S64x1) (r : Fin 64) :
    shapeCast S64x1 x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- A vector [1] cast to [1, 1], read at (0, 0), is the vector's one entry. -/
theorem unit_apply {α : Type} (x : S1.Idx → α) (h : S1.ShapeCasts S1x1) :
    shapeCast S1x1 x h (ix2 (0 : Fin 1) (0 : Fin 1)) = x (ix1 (0 : Fin 1)) :=
  shapeCast_apply x h (ix2 (0 : Fin 1) (0 : Fin 1)) (ix1 (0 : Fin 1)) (by
    rw [Shape.rowMajor_val_one, Shape.rowMajor_val_two]
    rfl)

/-- The reconstruction kernel's accumulation: the accumulator plus the sum, over rows and the block's pixels, of the
    squared masked reconstruction. -/
theorem k1_pay2_apply (v3 : Vec Ideal S64x8192 .i32) (v6 : Vec Ideal S8192x110 .f32) (v8 : Vec Ideal S64x110 .f32)
    (v18 : Vec Ideal S1x1 .f32) :
    k1_pay2 (F := Ideal) v3 v6 v8 v18 (ix2 (0 : Fin 1) (0 : Fin 1))
      = v18 (ix2 (0 : Fin 1) (0 : Fin 1)) + ∑ r : Fin 64, ∑ j : Fin 8192,
          (((∑ k : Fin 110, v8 (ix2 r k) * v6 (ix2 j k)) * (((v3 (ix2 r j)).toInt : ℝ) : EReal))
            * ((∑ k : Fin 110, v8 (ix2 r k) * v6 (ix2 j k)) * (((v3 (ix2 r j)).toInt : ℝ) : EReal))) := by
  unfold k1_pay2
  simp only [shapeCast_self]
  refine congrArg (v18 (ix2 (0 : Fin 1) (0 : Fin 1)) + ·) ?_
  refine (unit_apply _ _).trans ?_
  refine (columnSum_apply _ _ _ _).trans ?_
  refine Finset.sum_congr rfl fun r _ => ?_
  refine (column_apply _ _ r).trans ?_
  refine (pixelSum_apply _ _ _ _ r).trans ?_
  refine Finset.sum_congr rfl fun j _ => ?_
  have e := Cert.Lib.RowDot.matmul_rows_zero_apply (M := 64) (K := 110) (N := 8192) none
    (truncf .bf16 v8 Gen.bitsLt_bf16_f32 : FVec Ideal S64x110 .bf16) (truncf .bf16 v6 Gen.bitsLt_bf16_f32 : FVec Ideal S8192x110 .bf16) r j
  exact congrArg (fun t : EReal => (t * (((v3 (ix2 r j)).toInt : ℝ) : EReal)) * (t * (((v3 (ix2 r j)).toInt : ℝ) : EReal))) e

end Cert.KernelIdeal.Payloads

end
-- ==== Proof.Spec.lean ====
/-
  The two results as explicit sums, over plain coordinates.

  Arguments, already flattened: `yp yt mk : Fin 64 → Fin 65536 → EReal` (predictions, targets and the 0/1 mask converted
  to a float, one row per (batch, channel) pair, one column per pixel), `A : Fin 65536 → Fin 110 → EReal` (the basis)
  and `P : Fin 110 → Fin 65536 → EReal` (its pseudo-inverse).

  The tiled program: the masked difference `d = (yp − yt) · mk` is projected tile by tile (eight tiles of 8192
  pixels, four per core, each core adding its four tiles to a zero accumulator in order), the two cores' partial
  projections are added to zero, the projection is reconstructed and masked tile by tile, the squares summed per tile
  and accumulated in the same order, and the two cores' totals added to zero.

  The plain program: predictions and targets are masked, projected, reconstructed and masked separately, over all
  65536 pixels at once, and the squared difference of the two reconstructions is summed over everything, from zero.

  Both are then divided by the same constant, which this file leaves out: the two SUMS are what has to agree.
-/
import Mathlib

noncomputable section

namespace Cert.Spec

/-- Pixel `j` of tile `t`: tiles are consecutive runs of 8192 pixels. -/
def col (t : Fin 8) (j : Fin 8192) : Fin 65536 := ⟨8192 * t.val + j.val, by have := t.isLt; have := j.isLt; omega⟩

/-- Tile `n` of core `c`: each core takes four consecutive tiles. -/
def tile (c : Fin 2) (n : Fin 4) : Fin 8 := ⟨4 * c.val + n.val, by have := c.isLt; have := n.isLt; omega⟩

section
variable (yp yt mk : Fin 64 → Fin 65536 → EReal) (A : Fin 65536 → Fin 110 → EReal) (P : Fin 110 → Fin 65536 → EReal)

/-! ## The tiled program -/

/-- The masked difference. -/
def diff (r : Fin 64) (n : Fin 65536) : EReal := (yp r n - yt r n) * mk r n

/-- One tile's contribution to the projection: row `r` of the masked difference against row `k` of the pseudo-inverse,
    over the tile's pixels. -/
def projTile (t : Fin 8) (r : Fin 64) (k : Fin 110) : EReal :=
  ∑ j : Fin 8192, diff yp yt mk r (col t j) * P k (col t j)

/-- A core's partial projection: its four tiles added to zero, in order. -/
def projCore (c : Fin 2) (r : Fin 64) (k : Fin 110) : EReal :=
  (((0 + projTile yp yt mk P (tile c 0) r k) + projTile yp yt mk P (tile c 1) r k) + projTile yp yt mk P (tile c 2) r k)
    + projTile yp yt mk P (tile c 3) r k

/-- The projection: the two cores' parts added to zero. -/
def proj (r : Fin 64) (k : Fin 110) : EReal := 0 + ∑ c : Fin 2, projCore yp yt mk P c r k

/-- The masked reconstruction of the projected difference. -/
def recon (r : Fin 64) (n : Fin 65536) : EReal := (∑ k : Fin 110, proj yp yt mk P r k * A n k) * mk r n

/-- One tile's sum of squares: rows outside, the tile's pixels inside. -/
def sqTile (t : Fin 8) : EReal :=
  ∑ r : Fin 64, ∑ j : Fin 8192, recon yp yt mk A P r (col t j) * recon yp yt mk A P r (col t j)

/-- A core's total: its four tiles added to zero, in order. -/
def sqCore (c : Fin 2) : EReal :=
  (((0 + sqTile yp yt mk A P (tile c 0)) + sqTile yp yt mk A P (tile c 1)) + sqTile yp yt mk A P (tile c 2))
    + sqTile yp yt mk A P (tile c 3)

/-- The tiled program's sum of squared errors: the two cores' totals added to zero. -/
def tiledSum : EReal := 0 + ∑ c : Fin 2, sqCore yp yt mk A P c

/-! ## The plain program -/

/-- A masked array projected over all pixels at once. -/
def projAll (y : Fin 64 → Fin 65536 → EReal) (r : Fin 64) (k : Fin 110) : EReal :=
  ∑ n : Fin 65536, (y r n * mk r n) * P k n

/-- Its masked reconstruction. -/
def reconAll (y : Fin 64 → Fin 65536 → EReal) (r : Fin 64) (n : Fin 65536) : EReal :=
  (∑ k : Fin 110, projAll mk P y r k * A n k) * mk r n

/-- The plain program's sum of squared errors, from zero. -/
def plainSum : EReal :=
  0 + ∑ r : Fin 64, ∑ n : Fin 65536,
    (reconAll mk A P yp r n - reconAll mk A P yt r n) * (reconAll mk A P yp r n - reconAll mk A P yt r n)

end

end Cert.Spec

end
-- ==== Proof.KI.Sums0.lean ====
/-
  The projection kernel's accumulator, at the ideal values, as the specification's sums.

  One accumulation step at grid point t adds to the accumulator, at (r, k), the tile's contribution to the
  projection: the sum over the tile's 8192 pixels of the masked difference at row r times the pseudo-inverse at
  row k — each block read at a local pixel j is the region's array at the global pixel 8192·t + j. A core's four
  tiles, the first starting from zero, therefore leave the core's partial projection in the order the
  specification adds them.
-/
import proofs.«159922_j46213848105408_2_alg».proof.Proof.KI.Values0
import proofs.«159922_j46213848105408_2_alg».proof.Proof.KI.Blocks
import proofs.«159922_j46213848105408_2_alg».proof.Proof.Payloads
import proofs.«159922_j46213848105408_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix2)

section
variable (V : (c : Dev nD) → (b : Ref sig .tc) → Buf (Elt Ideal) ((c : Thread nD τ).loc b)) (c : Dev nD)

/-! ## The recursion, one point at a time -/

/-- At a core's first tile the accumulator is one step from zero. -/
theorem acc0_first (n : ℕ) (h : n < cfg0.N) (hn : n % 4 = 0) :
    acc0 V c n h = k0_pay2 (iblk0 V c 3 ⟨n, h⟩) (iblk0 V c 1 ⟨n, h⟩) (iblk0 V c 2 ⟨n, h⟩) (iblk0 V c 0 ⟨n, h⟩) (k0_pay1 (F := Ideal)) := by
  cases n with
  | zero => rfl
  | succ n =>
    show (if (n + 1) % 4 = 0 then _ else _) = _
    rw [if_pos hn]

/-- At every other tile it is one step from the accumulator after the point before. -/
theorem acc0_next (n : ℕ) (h : n + 1 < cfg0.N) (hn : ¬(n + 1) % 4 = 0) :
    acc0 V c (n + 1) h = k0_pay2 (iblk0 V c 3 ⟨n + 1, h⟩) (iblk0 V c 1 ⟨n + 1, h⟩) (iblk0 V c 2 ⟨n + 1, h⟩) (iblk0 V c 0 ⟨n + 1, h⟩) (acc0 V c n (Nat.lt_of_succ_lt h)) := by
  show (if (n + 1) % 4 = 0 then _ else _) = _
  rw [if_neg hn]

variable (yp yt mk : Fin 64 → Fin 65536 → EReal) (P : Fin 110 → Fin 65536 → EReal)

/-! ## One step is one tile's contribution -/

/-- The accumulation step at point `t`, whose blocks are tile `t'` of the arrays, adds that tile's contribution to the
    projection. -/
theorem step0_apply (hyp : ∀ (r : Fin 64) (n : Fin 65536), V c main_v0 (ix2 r n) = yp r n)
    (hyt : ∀ (r : Fin 64) (n : Fin 65536), V c main_v1 (ix2 r n) = yt r n)
    (hmk : ∀ (r : Fin 64) (n : Fin 65536), (((V c main_v2 (ix2 r n)).toInt : ℝ) : EReal) = mk r n)
    (hP : ∀ (k : Fin 110) (n : Fin 65536), V c main_arg4 (ix2 k n) = P k n)
    (t : Fin cfg0.N) (t' : Fin 8) (ht : t'.val = t.val) (prev : Vec Ideal S64x110 .f32) (r : Fin 64) (k : Fin 110) :
    k0_pay2 (F := Ideal) (iblk0 V c 3 t) (iblk0 V c 1 t) (iblk0 V c 2 t) (iblk0 V c 0 t) prev (ix2 r k)
      = prev (ix2 r k) + Cert.Spec.projTile yp yt mk P t' r k := by
  refine (Cert.KernelIdeal.Payloads.k0_pay2_apply _ _ _ _ prev r k).trans ?_
  refine congrArg (prev (ix2 r k) + ·) ?_
  unfold Cert.Spec.projTile Cert.Spec.diff
  refine Finset.sum_congr rfl fun j _ => ?_
  have hn : (Cert.Spec.col t' j).val = 8192 * t.val + j.val := by
    show 8192 * t'.val + j.val = 8192 * t.val + j.val
    rw [ht]
  have e0 := (iblk0_0_at V c t k j _ hn).trans (hP k _)
  have e1 := (iblk0_1_at V c t r j _ hn).trans (hyp r _)
  have e2 := (iblk0_2_at V c t r j _ hn).trans (hyt r _)
  have e3 := (congrArg (fun w : BitVec 32 => ((w.toInt : ℝ) : EReal)) (iblk0_3_at V c t r j _ hn)).trans (hmk r _)
  exact congrArg₂ (· * ·) (congrArg₂ (· * ·) (congrArg₂ (· - ·) e1 e2) e3) e0

/-! ## A core's four tiles -/

/-- Four consecutive points from a core's first tile `m`, whose blocks are the tiles `t0 … t3`: the accumulator after
    the fourth is zero plus the four contributions, added in order. -/
theorem acc0_run (hyp : ∀ (r : Fin 64) (n : Fin 65536), V c main_v0 (ix2 r n) = yp r n)
    (hyt : ∀ (r : Fin 64) (n : Fin 65536), V c main_v1 (ix2 r n) = yt r n)
    (hmk : ∀ (r : Fin 64) (n : Fin 65536), (((V c main_v2 (ix2 r n)).toInt : ℝ) : EReal) = mk r n)
    (hP : ∀ (k : Fin 110) (n : Fin 65536), V c main_arg4 (ix2 k n) = P k n)
    (m : ℕ) (hm : m % 4 = 0) (h : m + 3 < cfg0.N) (t0 t1 t2 t3 : Fin 8)
    (e0 : t0.val = m) (e1 : t1.val = m + 1) (e2 : t2.val = m + 2) (e3 : t3.val = m + 3) (r : Fin 64) (k : Fin 110) :
    acc0 V c (m + 3) h (ix2 r k)
      = (((0 + Cert.Spec.projTile yp yt mk P t0 r k) + Cert.Spec.projTile yp yt mk P t1 r k)
          + Cert.Spec.projTile yp yt mk P t2 r k) + Cert.Spec.projTile yp yt mk P t3 r k := by
  have h0 : m < cfg0.N := by omega
  have h1 : m + 1 < cfg0.N := by omega
  have h2 : m + 2 < cfg0.N := by omega
  have b0 : acc0 V c m h0 (ix2 r k) = 0 + Cert.Spec.projTile yp yt mk P t0 r k :=
    (congrFun (acc0_first V c m h0 hm) (ix2 r k)).trans
      ((step0_apply V c yp yt mk P hyp hyt hmk hP ⟨m, h0⟩ t0 e0 _ r k).trans
        (congrArg (· + Cert.Spec.projTile yp yt mk P t0 r k) (Cert.KernelIdeal.Payloads.k0_pay1_apply r k)))
  have b1 : acc0 V c (m + 1) h1 (ix2 r k) = (0 + Cert.Spec.projTile yp yt mk P t0 r k) + Cert.Spec.projTile yp yt mk P t1 r k :=
    (congrFun (acc0_next V c m h1 (by omega)) (ix2 r k)).trans
      ((step0_apply V c yp yt mk P hyp hyt hmk hP ⟨m + 1, h1⟩ t1 e1 _ r k).trans
        (congrArg (· + Cert.Spec.projTile yp yt mk P t1 r k) b0))
  have b2 : acc0 V c (m + 2) h2 (ix2 r k)
      = ((0 + Cert.Spec.projTile yp yt mk P t0 r k) + Cert.Spec.projTile yp yt mk P t1 r k) + Cert.Spec.projTile yp yt mk P t2 r k :=
    (congrFun (acc0_next V c (m + 1) h2 (by omega)) (ix2 r k)).trans
      ((step0_apply V c yp yt mk P hyp hyt hmk hP ⟨m + 2, h2⟩ t2 e2 _ r k).trans
        (congrArg (· + Cert.Spec.projTile yp yt mk P t2 r k) b1))
  exact (congrFun (acc0_next V c (m + 2) h (by omega)) (ix2 r k)).trans
    ((step0_apply V c yp yt mk P hyp hyt hmk hP ⟨m + 3, h⟩ t3 e3 _ r k).trans
      (congrArg (· + Cert.Spec.projTile yp yt mk P t3 r k) b2))

/-- After the first core's last tile the accumulator is that core's partial projection. -/
theorem acc0_core0 (hyp : ∀ (r : Fin 64) (n : Fin 65536), V c main_v0 (ix2 r n) = yp r n)
    (hyt : ∀ (r : Fin 64) (n : Fin 65536), V c main_v1 (ix2 r n) = yt r n)
    (hmk : ∀ (r : Fin 64) (n : Fin 65536), (((V c main_v2 (ix2 r n)).toInt : ℝ) : EReal) = mk r n)
    (hP : ∀ (k : Fin 110) (n : Fin 65536), V c main_arg4 (ix2 k n) = P k n)
    (h : 3 < cfg0.N) (r : Fin 64) (k : Fin 110) :
    acc0 V c 3 h (ix2 r k) = Cert.Spec.projCore yp yt mk P 0 r k :=
  acc0_run V c yp yt mk P hyp hyt hmk hP 0 rfl h (Cert.Spec.tile 0 0) (Cert.Spec.tile 0 1) (Cert.Spec.tile 0 2) (Cert.Spec.tile 0 3)
    rfl rfl rfl rfl r k

/-- After the second core's last tile, the second core's. -/
theorem acc0_core1 (hyp : ∀ (r : Fin 64) (n : Fin 65536), V c main_v0 (ix2 r n) = yp r n)
    (hyt : ∀ (r : Fin 64) (n : Fin 65536), V c main_v1 (ix2 r n) = yt r n)
    (hmk : ∀ (r : Fin 64) (n : Fin 65536), (((V c main_v2 (ix2 r n)).toInt : ℝ) : EReal) = mk r n)
    (hP : ∀ (k : Fin 110) (n : Fin 65536), V c main_arg4 (ix2 k n) = P k n)
    (h : 7 < cfg0.N) (r : Fin 64) (k : Fin 110) :
    acc0 V c 7 h (ix2 r k) = Cert.Spec.projCore yp yt mk P 1 r k :=
  acc0_run V c yp yt mk P hyp hyt hmk hP 4 rfl h (Cert.Spec.tile 1 0) (Cert.Spec.tile 1 1) (Cert.Spec.tile 1 2) (Cert.Spec.tile 1 3)
    rfl rfl rfl rfl r k

end

end Cert.KernelIdeal.Hand

end
-- ==== Proof.KI.Sums1.lean ====
/-
  The reconstruction kernel's accumulator after a core's last tile is the specification's per-core total.

  One tile's step adds to the accumulator the sum, over the 64 rows and the tile's 8192 pixels, of the squared masked
  reconstruction: the three blocks the body loads are the projection (whole), the tile's rows of the basis and the
  tile's columns of the mask, so the step's summand at (r, j) is the specification's reconstruction at row r and
  pixel 8192·t + j. Four steps from the reset value zero, in order, are the core's total in the specification's
  grouping.
-/
import proofs.«159922_j46213848105408_2_alg».proof.Proof.KI.Values1
import proofs.«159922_j46213848105408_2_alg».proof.Proof.KI.Blocks
import proofs.«159922_j46213848105408_2_alg».proof.Proof.Payloads
import proofs.«159922_j46213848105408_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

section
variable (V : (c : Dev nD) → (b : Ref sig .tc) → Buf (Elt Ideal) ((c : Thread nD τ).loc b)) (c : Dev nD)
  (yp yt mk : Fin 64 → Fin 65536 → EReal) (A : Fin 65536 → Fin 110 → EReal) (P : Fin 110 → Fin 65536 → EReal)
  (hxd : ∀ (r : Fin 64) (k : Fin 110), V c main_v4 (ix2 r k) = Cert.Spec.proj yp yt mk P r k)
  (hA : ∀ (n : Fin 65536) (k : Fin 110), V c main_arg3 (ix2 n k) = A n k)
  (hmk : ∀ (r : Fin 64) (n : Fin 65536), (((V c main_v2 (ix2 r n)).toInt : ℝ) : EReal) = mk r n)

include hxd hA hmk

/-- One tile's step: the accumulator plus the tile's sum of squares. -/
theorem tile_step (t : Fin cfg1.N) (t' : Fin 8) (ht : t'.val = t.val) (prev : Vec Ideal S1x1 .f32) :
    k1_pay2 (F := Ideal) (iblk1 V c 2 t) (iblk1 V c 1 t) (iblk1 V c 0 t) prev (ix2 (0 : Fin 1) (0 : Fin 1))
      = prev (ix2 (0 : Fin 1) (0 : Fin 1)) + Cert.Spec.sqTile yp yt mk A P t' := by
  refine (Cert.KernelIdeal.Payloads.k1_pay2_apply (iblk1 V c 2 t) (iblk1 V c 1 t) (iblk1 V c 0 t) prev).trans ?_
  refine congrArg (prev (ix2 (0 : Fin 1) (0 : Fin 1)) + ·) ?_
  unfold Cert.Spec.sqTile
  refine Finset.sum_congr rfl fun r _ => Finset.sum_congr rfl fun j _ => ?_
  have hn : (Cert.Spec.col t' j).val = 8192 * t.val + j.val := by rw [← ht]; rfl
  refine congrArg (fun z : EReal => z * z) ?_
  unfold Cert.Spec.recon
  refine congrArg₂ (· * ·) (Finset.sum_congr rfl fun k _ => ?_) ?_
  · exact congrArg₂ (· * ·) ((iblk1_0_at V c t r k).trans (hxd r k)) ((iblk1_1_at V c t j k _ hn).trans (hA _ k))
  · exact (congrArg (fun w : BitVec 32 => ((w.toInt : ℝ) : EReal)) (iblk1_2_at V c t r j _ hn)).trans (hmk r _)

/-- The accumulator after the very first point: zero plus the first tile's sum of squares. -/
theorem acc1_zero_at (h : 0 < cfg1.N) (t' : Fin 8) (ht : t'.val = 0) :
    acc1 V c 0 h (ix2 (0 : Fin 1) (0 : Fin 1)) = 0 + Cert.Spec.sqTile yp yt mk A P t' :=
  (tile_step V c yp yt mk A P hxd hA hmk ⟨0, h⟩ t' ht _).trans
    (congrArg (· + Cert.Spec.sqTile yp yt mk A P t') Cert.KernelIdeal.Payloads.k1_pay1_apply)

/-- The accumulator after a core's first tile: zero plus that tile's sum of squares. -/
theorem acc1_first_at (n : ℕ) (h : n + 1 < cfg1.N) (h0 : (n + 1) % 4 = 0) (t' : Fin 8) (ht : t'.val = n + 1) :
    acc1 V c (n + 1) h (ix2 (0 : Fin 1) (0 : Fin 1)) = 0 + Cert.Spec.sqTile yp yt mk A P t' :=
  (congrFun (acc1_succ_first V c n h h0) _).trans
    ((tile_step V c yp yt mk A P hxd hA hmk ⟨n + 1, h⟩ t' ht _).trans
      (congrArg (· + Cert.Spec.sqTile yp yt mk A P t') Cert.KernelIdeal.Payloads.k1_pay1_apply))

/-- The accumulator after a later tile: what the point before left plus the tile's sum of squares. -/
theorem acc1_later_at (n : ℕ) (h : n + 1 < cfg1.N) (h0 : ¬(n + 1) % 4 = 0) (t' : Fin 8) (ht : t'.val = n + 1) :
    acc1 V c (n + 1) h (ix2 (0 : Fin 1) (0 : Fin 1))
      = acc1 V c n (Nat.lt_of_succ_lt h) (ix2 (0 : Fin 1) (0 : Fin 1)) + Cert.Spec.sqTile yp yt mk A P t' :=
  (congrFun (acc1_succ_later V c n h h0) _).trans (tile_step V c yp yt mk A P hxd hA hmk ⟨n + 1, h⟩ t' ht _)

/-- After the first core's last tile the accumulator is the first core's total. -/
theorem acc1_core0 (h : 3 < cfg1.N) :
    acc1 V c 3 h (ix2 (0 : Fin 1) (0 : Fin 1)) = Cert.Spec.sqCore yp yt mk A P 0 := by
  unfold Cert.Spec.sqCore
  refine (acc1_later_at V c yp yt mk A P hxd hA hmk 2 h (by decide) (Cert.Spec.tile 0 3) rfl).trans ?_
  refine congrArg (· + Cert.Spec.sqTile yp yt mk A P (Cert.Spec.tile 0 3)) ?_
  refine (acc1_later_at V c yp yt mk A P hxd hA hmk 1 _ (by decide) (Cert.Spec.tile 0 2) rfl).trans ?_
  refine congrArg (· + Cert.Spec.sqTile yp yt mk A P (Cert.Spec.tile 0 2)) ?_
  refine (acc1_later_at V c yp yt mk A P hxd hA hmk 0 _ (by decide) (Cert.Spec.tile 0 1) rfl).trans ?_
  refine congrArg (· + Cert.Spec.sqTile yp yt mk A P (Cert.Spec.tile 0 1)) ?_
  exact acc1_zero_at V c yp yt mk A P hxd hA hmk _ (Cert.Spec.tile 0 0) rfl

/-- After the second core's last tile the accumulator is the second core's total. -/
theorem acc1_core1 (h : 7 < cfg1.N) :
    acc1 V c 7 h (ix2 (0 : Fin 1) (0 : Fin 1)) = Cert.Spec.sqCore yp yt mk A P 1 := by
  unfold Cert.Spec.sqCore
  refine (acc1_later_at V c yp yt mk A P hxd hA hmk 6 h (by decide) (Cert.Spec.tile 1 3) rfl).trans ?_
  refine congrArg (· + Cert.Spec.sqTile yp yt mk A P (Cert.Spec.tile 1 3)) ?_
  refine (acc1_later_at V c yp yt mk A P hxd hA hmk 5 _ (by decide) (Cert.Spec.tile 1 2) rfl).trans ?_
  refine congrArg (· + Cert.Spec.sqTile yp yt mk A P (Cert.Spec.tile 1 2)) ?_
  refine (acc1_later_at V c yp yt mk A P hxd hA hmk 4 _ (by decide) (Cert.Spec.tile 1 1) rfl).trans ?_
  refine congrArg (· + Cert.Spec.sqTile yp yt mk A P (Cert.Spec.tile 1 1)) ?_
  exact acc1_first_at V c yp yt mk A P hxd hA hmk 3 _ (by decide) (Cert.Spec.tile 1 0) rfl

end

end Cert.KernelIdeal.Hand

end
-- ==== Proof.HostReads.lean ====
/-
  The host operations around the two kernels, at the ideal values, read at an index.

  The three argument arrays [8, 8, 256, 256] are flattened to [64, 65536] before the first kernel: row 8·b + c, column
  256·h + w. After each kernel the two cores' parts — a [2, 64, 110] array of partial projections, a [2, 1, 1] array
  of partial sums of squares — are added along the core axis, starting from the initial value.
-/
import proofs.«159922_j46213848105408_2_alg».proof.KernelIdeal
import proofs.«159922_j46213848105408_2_alg».proof.Proof.Inputs
import Idealize.ShloMosaic.Lib.ValueIdx
import Idealize.ShloMosaic.Lib.Pipeline.Value
import Idealize.ShloMosaic.PureOps.Ideal.Laws

noncomputable section

namespace Cert.KernelIdeal.HostReads

open Idealize.ShloMosaic Idealize.ShloMosaic.ValueIdx Cert.KernelIdeal

/-- The flattening [8, 8, 256, 256] → [64, 65536], read at row r, column n: the array at the four coordinates
    (r / 8, r % 8, n / 256, n % 256). -/
theorem flatten_apply {α : Type} (x : S8x8x256x256.Idx → α) (h : S8x8x256x256.ShapeCasts S64x65536)
    (r : Fin 64) (n : Fin 65536) :
    shapeCast S64x65536 x h (ix2 r n) = Cert.Inputs.flat x r n :=
  shapeCast_apply x h (ix2 r n) (Cert.Inputs.at4 r n) (by
    rw [Shape.rowMajor_val_four, Shape.rowMajor_val_two]
    show ((r.val / 8 * 8 + r.val % 8) * 256 + n.val / 256) * 256 + n.val % 256 = r.val * 65536 + n.val
    omega)

/-- The two cores' partial projections added along the core axis, read at (r, k): the initial value plus the two
    parts at (r, k). -/
theorem coreSum_apply (x : FVec Ideal S2x64x110 .f32) (v : S_.Idx → Ideal .f32)
    (h' : S2x64x110.ReducesTo [0] S64x110) (hu : 0 < S_.numel) (r : Fin 64) (k : Fin 110) :
    Host.reduceAdd (F := Ideal) x v h' hu (ix2 r k) = v ix0 + ∑ c : Fin 2, x (ix3 c r k) := by
  simp only [Host.reduceAdd, Ideal.hostReduceAdd_def]
  refine (Ideal.hostReduceAdd_single h' (by decide) x _ (ix2 r k)).trans ?_
  refine congrArg₂ (· + ·) (congrArg v (funext fun a => a.elim0)) (Finset.sum_congr rfl fun c _ => congrArg x ?_)
  exact funext fun a => Fin.ext (by
    match a with
    | ⟨0, _⟩ => rfl
    | ⟨1, _⟩ => rfl
    | ⟨2, _⟩ => rfl)

/-- The indices of a [2, 1, 1] array are its two positions along the first axis. -/
def corePos : Fin 2 ≃ S2x1x1.Idx where
  toFun c := ix3 c (0 : Fin 1) (0 : Fin 1)
  invFun i := i 0
  left_inv _ := rfl
  right_inv i := by
    have h1 : (i 1).val < 1 := (i 1).isLt
    have h2 : (i 2).val < 1 := (i 2).isLt
    exact funext fun a => Fin.ext (by
      match a with
      | ⟨0, _⟩ => rfl
      | ⟨1, _⟩ => show (0 : Nat) = (i 1).val; omega
      | ⟨2, _⟩ => show (0 : Nat) = (i 2).val; omega)

/-- The two cores' partial sums of squares added over every axis: the initial value plus the two parts. -/
theorem coreTotal_apply (x : FVec Ideal S2x1x1 .f32) (v : S_.Idx → Ideal .f32)
    (h' : S2x1x1.ReducesTo [0, 1, 2] S_) (hu : 0 < S_.numel) :
    Host.reduceAdd (F := Ideal) x v h' hu ix0 = v ix0 + ∑ c : Fin 2, x (ix3 c (0 : Fin 1) (0 : Fin 1)) := by
  simp only [Host.reduceAdd, Ideal.hostReduceAdd_def]
  refine (Ideal.hostReduceAdd_total h' (fun b => b.elim0) x _ ix0).trans ?_
  exact congrArg₂ (· + ·) (congrArg v (funext fun a => a.elim0)) (Equiv.sum_comp corePos x).symm

end Cert.KernelIdeal.HostReads

end
-- ==== Proof.KI.Final.lean ====
/-
  The kernel program's result at the ideal values. The last buffer is the division, by the pixel count, of the two
  cores' totals summed from zero; each total is the reconstruction kernel's accumulator after the core's last tile,
  which is the core's four tiles' sums of squares added to zero in order; the projection those squares are taken of is
  the two cores' partial projections summed from zero, each the projection kernel's accumulator after the core's last
  tile. Read through the flattening of the arguments, that is the specification's tiled sum.
-/
import proofs.«159922_j46213848105408_2_alg».proof.Proof.KI.Arrays
import proofs.«159922_j46213848105408_2_alg».proof.Proof.KI.Hosts
import proofs.«159922_j46213848105408_2_alg».proof.Proof.KI.Sums0
import proofs.«159922_j46213848105408_2_alg».proof.Proof.KI.Sums1
import proofs.«159922_j46213848105408_2_alg».proof.Proof.HostReads
import proofs.«159922_j46213848105408_2_alg».proof.Proof.Payloads
import proofs.«159922_j46213848105408_2_alg».proof.Proof.Inputs
import proofs.«159922_j46213848105408_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section
variable (m : (ℓ : Loc nD τ sig) → Buf (Elt Ideal) ℓ) (ρ : Dev nD → PrngReg) (c : Dev nD)

/-- The arguments as the specification reads them. -/
abbrev argYp : Fin 64 → Fin 65536 → EReal := Cert.Inputs.flat (m ((c : Thread nD τ).loc main_arg0))
abbrev argYt : Fin 64 → Fin 65536 → EReal := Cert.Inputs.flat (m ((c : Thread nD τ).loc main_arg1))
abbrev argMk : Fin 64 → Fin 65536 → EReal := Cert.Inputs.maskReal (m ((c : Thread nD τ).loc main_arg2))
abbrev argA : Fin 65536 → Fin 110 → EReal := Cert.Inputs.mat (m ((c : Thread nD τ).loc main_arg3))
abbrev argP : Fin 110 → Fin 65536 → EReal := Cert.Inputs.mat (m ((c : Thread nD τ).loc main_arg4))

/-! ## What the projection kernel's region reads -/

theorem in0_yp (r : Fin 64) (n : Fin 65536) : V1 m ρ c main_v0 (ix2 r n) = argYp m c r n := by
  rw [V1_v0]; exact Cert.KernelIdeal.HostReads.flatten_apply _ _ r n
theorem in0_yt (r : Fin 64) (n : Fin 65536) : V1 m ρ c main_v1 (ix2 r n) = argYt m c r n := by
  rw [V1_v1]; exact Cert.KernelIdeal.HostReads.flatten_apply _ _ r n
theorem in0_mk (r : Fin 64) (n : Fin 65536) : (((V1 m ρ c main_v2 (ix2 r n)).toInt : ℝ) : EReal) = argMk m c r n := by
  rw [V1_v2, Cert.KernelIdeal.HostReads.flatten_apply]; rfl
theorem in0_P (k : Fin 110) (n : Fin 65536) : V1 m ρ c main_arg4 (ix2 k n) = argP m c k n := by
  rw [V1_arg4]; rfl

/-- The projection kernel's result array, core by core. -/
theorem proj_parts (cc : Fin 2) (r : Fin 64) (k : Fin 110) :
    (dat0 (V1 m ρ) c).arrAt 4 cfg0.N (ix3 cc r k) = Cert.Spec.projCore (argYp m c) (argYt m c) (argMk m c) (argP m c) cc r k := by
  rw [final0]
  match cc with
  | ⟨0, _⟩ =>
    refine (show res0 (V1 m ρ) c (ix3 (⟨0, _⟩ : Fin 2) r k) = k0_pay3 (F := Ideal) (acc0 (V1 m ρ) c 3 (by rw [show cfg0.N = 8 from N_0]; decide)) (ix3 (0 : Fin 1) r k) from rfl).trans ?_
    refine (Cert.KernelIdeal.Payloads.k0_pay3_apply _ r k).trans ?_
    exact acc0_core0 (V1 m ρ) c (argYp m c) (argYt m c) (argMk m c) (argP m c) (in0_yp m ρ c) (in0_yt m ρ c) (in0_mk m ρ c) (in0_P m ρ c) _ r k
  | ⟨1, _⟩ =>
    refine (show res0 (V1 m ρ) c (ix3 (⟨1, _⟩ : Fin 2) r k) = k0_pay3 (F := Ideal) (acc0 (V1 m ρ) c 7 (by rw [show cfg0.N = 8 from N_0]; decide)) (ix3 (0 : Fin 1) r k) from rfl).trans ?_
    refine (Cert.KernelIdeal.Payloads.k0_pay3_apply _ r k).trans ?_
    exact acc0_core1 (V1 m ρ) c (argYp m c) (argYt m c) (argMk m c) (argP m c) (in0_yp m ρ c) (in0_yt m ρ c) (in0_mk m ρ c) (in0_P m ρ c) _ r k

/-! ## What the reconstruction kernel's region reads -/

theorem in1_xd (r : Fin 64) (k : Fin 110) :
    V3 m ρ c main_v4 (ix2 r k) = Cert.Spec.proj (argYp m c) (argYt m c) (argMk m c) (argP m c) r k := by
  rw [V3_v4, Cert.KernelIdeal.HostReads.coreSum_apply]
  unfold Cert.Spec.proj
  refine congrArg₂ (· + ·) ?_ (Finset.sum_congr rfl fun cc _ => proj_parts m ρ c cc r k)
  show Ideal.ofBits .f32 0x00000000#32 = 0
  exact Ideal.ofBits_zero_f32
theorem in1_A (n : Fin 65536) (k : Fin 110) : V3 m ρ c main_arg3 (ix2 n k) = argA m c n k := by
  rw [V3_arg3]; rfl
theorem in1_mk (r : Fin 64) (n : Fin 65536) : (((V3 m ρ c main_v2 (ix2 r n)).toInt : ℝ) : EReal) = argMk m c r n := by
  rw [V3_v2]; exact in0_mk m ρ c r n

/-- The reconstruction kernel's result array, core by core. -/
theorem sq_parts (cc : Fin 2) :
    (dat1 (V3 m ρ) c).arrAt 3 cfg1.N (ix3 cc (0 : Fin 1) (0 : Fin 1)) = Cert.Spec.sqCore (argYp m c) (argYt m c) (argMk m c) (argA m c) (argP m c) cc := by
  rw [final1]
  match cc with
  | ⟨0, _⟩ =>
    refine (show res1 (V3 m ρ) c (ix3 (⟨0, _⟩ : Fin 2) (0 : Fin 1) (0 : Fin 1)) = k1_pay3 (F := Ideal) (acc1 (V3 m ρ) c 3 (by rw [show cfg1.N = 8 from N_1]; decide)) (ix3 (0 : Fin 1) (0 : Fin 1) (0 : Fin 1)) from rfl).trans ?_
    refine (Cert.KernelIdeal.Payloads.k1_pay3_apply _).trans ?_
    exact acc1_core0 (V3 m ρ) c (argYp m c) (argYt m c) (argMk m c) (argA m c) (argP m c) (in1_xd m ρ c) (in1_A m ρ c) (in1_mk m ρ c) _
  | ⟨1, _⟩ =>
    refine (show res1 (V3 m ρ) c (ix3 (⟨1, _⟩ : Fin 2) (0 : Fin 1) (0 : Fin 1)) = k1_pay3 (F := Ideal) (acc1 (V3 m ρ) c 7 (by rw [show cfg1.N = 8 from N_1]; decide)) (ix3 (0 : Fin 1) (0 : Fin 1) (0 : Fin 1)) from rfl).trans ?_
    refine (Cert.KernelIdeal.Payloads.k1_pay3_apply _).trans ?_
    exact acc1_core1 (V3 m ρ) c (argYp m c) (argYt m c) (argMk m c) (argA m c) (argP m c) (in1_xd m ρ c) (in1_A m ρ c) (in1_mk m ρ c) _

/-! ## The result -/

/-- The last buffer holds the tiled sum divided by the pixel count. -/
theorem result_eq : W5 m ρ c (Proc.devRef .tc main_v7)
    = Host.divf (F := Ideal) (fun _ => Cert.Spec.tiledSum (argYp m c) (argYt m c) (argMk m c) (argA m c) (argP m c))
        (constant (F := Ideal) S_ .f32 0x4A800000#32) := by
  rw [W5_v7]
  refine congrArg (fun s => Host.divf (F := Ideal) s (constant (F := Ideal) S_ .f32 0x4A800000#32)) (funext fun i => ?_)
  rw [eq_ix0 i, Cert.KernelIdeal.HostReads.coreTotal_apply]
  unfold Cert.Spec.tiledSum
  refine congrArg₂ (· + ·) ?_ (Finset.sum_congr rfl fun cc _ => sq_parts m ρ c cc)
  show Ideal.ofBits .f32 0x00000000#32 = 0
  exact Ideal.ofBits_zero_f32

end

/-- The kernel program's run at the ideal values: it terminates, nothing faulting, with the result at the tiled sum
    divided by the pixel count and the argument arrays as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
        = Host.divf (F := Ideal) (fun _ => Cert.Spec.tiledSum (argYp m c) (argYt m c) (argMk m c) (argA m c) (argP m c))
            (constant (F := Ideal) S_ .f32 0x4A800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Hand

end
-- ==== Proof.RefValue.lean ====
/-
  The plain program's result, read off its operations.

  Every operation of the plain program is read at an index: the reshape of a four-axis array to (batch, channel,
  pixel) reads row 8·b + c, column n of the flattening; the conversion of the mask is the real number its word
  denotes; each contraction is a sum over its contracted axis; the total is a sum over all (batch, channel, pixel)
  triples, which is the sum over the 64 rows and the 65536 pixels. No finiteness is used: this is re-indexing only.
-/
import proofs.«159922_j46213848105408_2_alg».proof.Proof.Gen.ReferenceIdeal.Read
import proofs.«159922_j46213848105408_2_alg».proof.Proof.Spec
import proofs.«159922_j46213848105408_2_alg».proof.Proof.Inputs

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Row r, pixel n as a (batch, channel, pixel) triple: batch r / 8, channel r % 8. -/
def at3 (r : Fin 64) (n : Fin 65536) : S8x8x65536.Idx :=
  ix3 (⟨r.val / 8, by have := r.isLt; omega⟩ : Fin 8) (⟨r.val % 8, Nat.mod_lt _ (by decide)⟩ : Fin 8) n

/-- Row r, component k of a projection as a (batch, channel, component) triple. -/
def at3k (r : Fin 64) (k : Fin 110) : S8x8x110.Idx :=
  ix3 (⟨r.val / 8, by have := r.isLt; omega⟩ : Fin 8) (⟨r.val % 8, Nat.mod_lt _ (by decide)⟩ : Fin 8) k

/-- The (batch, channel, pixel) triples are the pairs (row, pixel). -/
def tripleEquiv : S8x8x65536.Idx ≃ Fin 64 × Fin 65536 where
  toFun i := (⟨8 * (i 0).val + (i 1).val, by
    have h0 : (i 0).val < 8 := (i 0).isLt; have h1 : (i 1).val < 8 := (i 1).isLt; omega⟩, i 2)
  invFun p := at3 p.1 p.2
  left_inv i := by
    have h0 : (i 0).val < 8 := (i 0).isLt
    have h1 : (i 1).val < 8 := (i 1).isLt
    funext a
    match a with
    | ⟨0, _⟩ => exact Fin.ext (show (8 * (i 0).val + (i 1).val) / 8 = (i 0).val by omega)
    | ⟨1, _⟩ => exact Fin.ext (show (8 * (i 0).val + (i 1).val) % 8 = (i 1).val by omega)
    | ⟨2, _⟩ => rfl
  right_inv p := by
    obtain ⟨r, n⟩ := p
    refine Prod.ext (Fin.ext ?_) rfl
    show 8 * (r.val / 8) + r.val % 8 = r.val
    omega

/-- A sum over all triples is the sum over rows of the sum over pixels. -/
theorem sum_triples {M : Type*} [AddCommMonoid M] (f : S8x8x65536.Idx → M) :
    ∑ i, f i = ∑ r : Fin 64, ∑ n : Fin 65536, f (at3 r n) := by
  rw [← Equiv.sum_comp tripleEquiv.symm f, Fintype.sum_prod_type]
  rfl

/-! ## The index functions of the operations, at a (row, pixel) triple -/

theorem idx_v0_at3 (r : Fin 64) (n : Fin 65536) : idx_main_v0 (at3 r n) = Cert.Inputs.at4 r n := by
  have hr := r.isLt
  have hn := n.isLt
  funext a
  match a with
  | ⟨0, _⟩ => exact Fin.ext (show ((r.val / 8 * 8 + r.val % 8) * 65536 + n.val) / 524288 = r.val / 8 by omega)
  | ⟨1, _⟩ => exact Fin.ext (show ((r.val / 8 * 8 + r.val % 8) * 65536 + n.val) / 65536 % 8 = r.val % 8 by omega)
  | ⟨2, _⟩ => exact Fin.ext (show ((r.val / 8 * 8 + r.val % 8) * 65536 + n.val) / 256 % 256 = n.val / 256 by omega)
  | ⟨3, _⟩ => exact Fin.ext (show ((r.val / 8 * 8 + r.val % 8) * 65536 + n.val) % 256 = n.val % 256 by omega)

theorem idx_v2_at3 (r : Fin 64) (n : Fin 65536) : idx_main_v2 (at3 r n) = Cert.Inputs.at4 r n := idx_v0_at3 r n

theorem idx_v4_at3 (r : Fin 64) (n : Fin 65536) : idx_main_v4 (at3 r n) = Cert.Inputs.at4 r n := idx_v0_at3 r n

theorem lidx_v6_at3k (r : Fin 64) (k : Fin 110) (n : Fin 65536) : lidx_main_v6 (at3k r k) n = at3 r n := by
  funext a; match a with | ⟨0, _⟩ => rfl | ⟨1, _⟩ => rfl | ⟨2, _⟩ => rfl

theorem ridx_v6_at3k (r : Fin 64) (k : Fin 110) (n : Fin 65536) : ridx_main_v6 (at3k r k) n = ix2 k n := by
  funext a; match a with | ⟨0, _⟩ => rfl | ⟨1, _⟩ => rfl

theorem lidx_v7_at3k (r : Fin 64) (k : Fin 110) (n : Fin 65536) : lidx_main_v7 (at3k r k) n = at3 r n := lidx_v6_at3k r k n

theorem ridx_v7_at3k (r : Fin 64) (k : Fin 110) (n : Fin 65536) : ridx_main_v7 (at3k r k) n = ix2 k n := ridx_v6_at3k r k n

theorem lidx_v8_at3 (r : Fin 64) (n : Fin 65536) (k : Fin 110) : lidx_main_v8 (at3 r n) k = at3k r k := by
  funext a; match a with | ⟨0, _⟩ => rfl | ⟨1, _⟩ => rfl | ⟨2, _⟩ => rfl

theorem ridx_v8_at3 (r : Fin 64) (n : Fin 65536) (k : Fin 110) : ridx_main_v8 (at3 r n) k = ix2 n k := by
  funext a; match a with | ⟨0, _⟩ => rfl | ⟨1, _⟩ => rfl

theorem lidx_v10_at3 (r : Fin 64) (n : Fin 65536) (k : Fin 110) : lidx_main_v10 (at3 r n) k = at3k r k := lidx_v8_at3 r n k

theorem ridx_v10_at3 (r : Fin 64) (n : Fin 65536) (k : Fin 110) : ridx_main_v10 (at3 r n) k = ix2 n k := ridx_v8_at3 r n k

/-! ## The stages at a (row, pixel) triple -/

section
variable (x0 x1 : FVec Ideal S8x8x256x256 .f32) (x2 : IVec S8x8x256x256 32)
  (x3 : FVec Ideal S65536x110 .f32) (x4 : FVec Ideal S110x65536 .f32)

/-- The converted mask. -/
theorem mask_at (r : Fin 64) (n : Fin 65536) :
    val_main_v1 (F := Ideal) x2 (at3 r n) = Cert.Inputs.maskReal x2 r n := by
  rw [val_main_v1_apply, val_main_v0_apply, idx_v0_at3]
  rfl

/-- The masked predictions. -/
theorem masked_pred_at (r : Fin 64) (n : Fin 65536) :
    val_main_v3 (F := Ideal) x0 x2 (at3 r n) = Cert.Inputs.flat x0 r n * Cert.Inputs.maskReal x2 r n := by
  rw [val_main_v3_apply, val_main_v2_apply, idx_v2_at3, mask_at]
  rfl

/-- The masked targets. -/
theorem masked_targ_at (r : Fin 64) (n : Fin 65536) :
    val_main_v5 (F := Ideal) x1 x2 (at3 r n) = Cert.Inputs.flat x1 r n * Cert.Inputs.maskReal x2 r n := by
  rw [val_main_v5_apply, val_main_v4_apply, idx_v4_at3, mask_at]
  rfl

/-- The projection of the masked predictions. -/
theorem proj_pred_at (r : Fin 64) (k : Fin 110) :
    val_main_v6 (F := Ideal) x0 x2 x4 (at3k r k)
      = Cert.Spec.projAll (Cert.Inputs.maskReal x2) (Cert.Inputs.mat x4) (Cert.Inputs.flat x0) r k := by
  rw [val_main_v6_apply]
  unfold Cert.Spec.projAll
  refine Finset.sum_congr rfl fun n _ => ?_
  rw [lidx_v6_at3k, ridx_v6_at3k, masked_pred_at]
  rfl

/-- The projection of the masked targets. -/
theorem proj_targ_at (r : Fin 64) (k : Fin 110) :
    val_main_v7 (F := Ideal) x1 x2 x4 (at3k r k)
      = Cert.Spec.projAll (Cert.Inputs.maskReal x2) (Cert.Inputs.mat x4) (Cert.Inputs.flat x1) r k := by
  rw [val_main_v7_apply]
  unfold Cert.Spec.projAll
  refine Finset.sum_congr rfl fun n _ => ?_
  rw [lidx_v7_at3k, ridx_v7_at3k, masked_targ_at]
  rfl

/-- The masked reconstruction of the predictions. -/
theorem recon_pred_at (r : Fin 64) (n : Fin 65536) :
    val_main_v9 (F := Ideal) x0 x2 x3 x4 (at3 r n)
      = Cert.Spec.reconAll (Cert.Inputs.maskReal x2) (Cert.Inputs.mat x3) (Cert.Inputs.mat x4) (Cert.Inputs.flat x0) r n := by
  rw [val_main_v9_apply, val_main_v8_apply, mask_at]
  unfold Cert.Spec.reconAll
  refine congrArg (· * Cert.Inputs.maskReal x2 r n) (Finset.sum_congr rfl fun k _ => ?_)
  rw [lidx_v8_at3, ridx_v8_at3, proj_pred_at]
  rfl

/-- The masked reconstruction of the targets. -/
theorem recon_targ_at (r : Fin 64) (n : Fin 65536) :
    val_main_v11 (F := Ideal) x1 x2 x3 x4 (at3 r n)
      = Cert.Spec.reconAll (Cert.Inputs.maskReal x2) (Cert.Inputs.mat x3) (Cert.Inputs.mat x4) (Cert.Inputs.flat x1) r n := by
  rw [val_main_v11_apply, val_main_v10_apply, mask_at]
  unfold Cert.Spec.reconAll
  refine congrArg (· * Cert.Inputs.maskReal x2 r n) (Finset.sum_congr rfl fun k _ => ?_)
  rw [lidx_v10_at3, ridx_v10_at3, proj_targ_at]
  rfl

/-- The squared difference of the two reconstructions. -/
theorem sq_at (r : Fin 64) (n : Fin 65536) :
    val_main_v13 (F := Ideal) x0 x1 x2 x3 x4 (at3 r n)
      = (Cert.Spec.reconAll (Cert.Inputs.maskReal x2) (Cert.Inputs.mat x3) (Cert.Inputs.mat x4) (Cert.Inputs.flat x0) r n
          - Cert.Spec.reconAll (Cert.Inputs.maskReal x2) (Cert.Inputs.mat x3) (Cert.Inputs.mat x4) (Cert.Inputs.flat x1) r n)
        * (Cert.Spec.reconAll (Cert.Inputs.maskReal x2) (Cert.Inputs.mat x3) (Cert.Inputs.mat x4) (Cert.Inputs.flat x0) r n
          - Cert.Spec.reconAll (Cert.Inputs.maskReal x2) (Cert.Inputs.mat x3) (Cert.Inputs.mat x4) (Cert.Inputs.flat x1) r n) := by
  rw [val_main_v13_apply, val_main_v12_apply, recon_pred_at, recon_targ_at]
  rfl

/-- The total: the plain program's sum of squared errors. -/
theorem total_eq :
    val_main_v14 (F := Ideal) x0 x1 x2 x3 x4
      = fun _ => Cert.Spec.plainSum (Cert.Inputs.flat x0) (Cert.Inputs.flat x1) (Cert.Inputs.maskReal x2)
          (Cert.Inputs.mat x3) (Cert.Inputs.mat x4) := by
  funext i
  have hz : FloatOps.ofBits (F := Ideal) .f32 0x00000000#32 = (0 : EReal) := Ideal.ofBits_zero_f32
  rw [val_main_v14_apply, val_main_cst_apply, hz, sum_triples]
  unfold Cert.Spec.plainSum
  refine congrArg (0 + ·) (Finset.sum_congr rfl fun r _ => Finset.sum_congr rfl fun n _ => ?_)
  exact sq_at x0 x1 x2 x3 x4 r n

/-- The plain program's result, as the run states it: its sum of squared errors, divided by the number of elements
    (the division and the constant are left as the operations, the same on both sides of the comparison). -/
theorem ref_result :
    Host.divf (F := Ideal) (Host.reduceAdd (mulf (subf (mulf (Host.dotGeneral dot_S8x8x110_S65536x110_S8x8x65536_2_1_01_0_n_n none (Host.dotGeneral dot_S8x8x65536_S110x65536_S8x8x110_2_1_01_0_n_n none (mulf (shapeCast _ (x0) shapeCasts_S8x8x256x256_S8x8x65536) (sitofp .f32 (shapeCast _ (x2) shapeCasts_S8x8x256x256_S8x8x65536))) (x4)) (x3)) (sitofp .f32 (shapeCast _ (x2) shapeCasts_S8x8x256x256_S8x8x65536))) (mulf (Host.dotGeneral dot_S8x8x110_S65536x110_S8x8x65536_2_1_01_0_n_n none (Host.dotGeneral dot_S8x8x65536_S110x65536_S8x8x110_2_1_01_0_n_n none (mulf (shapeCast _ (x1) shapeCasts_S8x8x256x256_S8x8x65536) (sitofp .f32 (shapeCast _ (x2) shapeCasts_S8x8x256x256_S8x8x65536))) (x4)) (x3)) (sitofp .f32 (shapeCast _ (x2) shapeCasts_S8x8x256x256_S8x8x65536)))) (subf (mulf (Host.dotGeneral dot_S8x8x110_S65536x110_S8x8x65536_2_1_01_0_n_n none (Host.dotGeneral dot_S8x8x65536_S110x65536_S8x8x110_2_1_01_0_n_n none (mulf (shapeCast _ (x0) shapeCasts_S8x8x256x256_S8x8x65536) (sitofp .f32 (shapeCast _ (x2) shapeCasts_S8x8x256x256_S8x8x65536))) (x4)) (x3)) (sitofp .f32 (shapeCast _ (x2) shapeCasts_S8x8x256x256_S8x8x65536))) (mulf (Host.dotGeneral dot_S8x8x110_S65536x110_S8x8x65536_2_1_01_0_n_n none (Host.dotGeneral dot_S8x8x65536_S110x65536_S8x8x110_2_1_01_0_n_n none (mulf (shapeCast _ (x1) shapeCasts_S8x8x256x256_S8x8x65536) (sitofp .f32 (shapeCast _ (x2) shapeCasts_S8x8x256x256_S8x8x65536))) (x4)) (x3)) (sitofp .f32 (shapeCast _ (x2) shapeCasts_S8x8x256x256_S8x8x65536))))) (constant S_ .f32 0x00000000#32) reducesTo_S8x8x65536_S_d0_1_2 h_S_) (constant S_ .f32 0x4A800000#32)
      = Host.divf (F := Ideal)
          (fun _ => Cert.Spec.plainSum (Cert.Inputs.flat x0) (Cert.Inputs.flat x1) (Cert.Inputs.maskReal x2)
            (Cert.Inputs.mat x3) (Cert.Inputs.mat x4))
          (constant (F := Ideal) S_ .f32 0x4A800000#32) := by
  refine (val_main_v15_eq (F := Ideal) x0 x1 x2 x3 x4).trans ?_
  unfold val_main_v15
  rw [total_eq]
  rfl

end

end Cert.RefValue

end
-- ==== Proof.Finite.lean ====
/-
  The precondition, read back: every float argument is a real number.

  The printed predicate compares the absolute value of every entry of the four float arrays with the word of +∞ and
  takes the conjunction of all the comparisons. On the extended reals, max x (−x) < ⊤ excludes both infinities, so
  the entry is the coercion of a real.
-/
import proofs.«159922_j46213848105408_2_alg».proof.Pre_finite_inputs
import Idealize.ShloMosaic.Lib.ReduceAll
import Idealize.ShloMosaic.Lib.ValueIdx
import Idealize.ShloMosaic.PureOps.Ideal.Laws

noncomputable section

namespace Cert.Finite

open Cert.Pre_finite_inputs Idealize.ShloMosaic

/-- The scalar shape has one index. -/
instance : Subsingleton S_.Idx := ⟨fun _ _ => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

/-- One conjunct of the predicate: if all comparisons of |a| with +∞ hold, every entry of a is real. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1) (i : s.Idx) : ∃ x : ℝ, a i = (x : EReal) :=
  real_of_abs_lt (a i) (Host.reduce_andi_all _ _ hr hu j e i)

variable [Facts]

/-- The precondition says that every entry of the four float arguments is a real number. -/
theorem inputs_real (a0 a1 : FVec Ideal S8x8x256x256 .f32) (a2 : IVec S8x8x256x256 32)
    (a3 : FVec Ideal S65536x110 .f32) (a4 : FVec Ideal S110x65536 .f32)
    (h : fn (F := Ideal) a0 a1 a2 a3 a4 = fun _ => 1#1) :
    (∀ i, ∃ x : ℝ, a0 i = (x : EReal)) ∧ (∀ i, ∃ x : ℝ, a1 i = (x : EReal))
      ∧ (∀ i, ∃ x : ℝ, a3 i = (x : EReal)) ∧ (∀ i, ∃ x : ℝ, a4 i = (x : EReal)) := by
  have h0 := congrFun h ValueIdx.ix0
  dsimp only [fn, fn_part1] at h0
  obtain ⟨h012, h4⟩ := IntOp.andi_eq_one.1 h0
  obtain ⟨h01, h3⟩ := IntOp.andi_eq_one.1 h012
  obtain ⟨h0', h1⟩ := IntOp.andi_eq_one.1 h01
  exact ⟨all_real a0 _ _ _ _ h0', all_real a1 _ _ _ _ h1, all_real a3 _ _ _ _ h3, all_real a4 _ _ _ _ h4⟩

end Cert.Finite

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.Bridge.lean ====
/-
  The tiled sum of squared errors equals the plain one when every input is a real number.

  Both sums are built from +, −, · and finite sums only, so with real inputs each is the image of a real number
  computed by the same expression over ℝ. Over ℝ the two expressions agree:
    * adding to zero changes nothing, a core's four tiles and the two cores together are the eight tiles, and a
      sum over eight tiles of 8192 pixels is the sum over all 65536 pixels;
    * projection and reconstruction are linear, so projecting and reconstructing the masked difference gives the
      difference of the two masked reconstructions;
    * the sum of squares over tiles, rows and pixels in a tile is the sum over rows and all pixels.
-/
import Mathlib
import proofs.«159922_j46213848105408_2_alg».proof.Proof.Spec
import proofs.«159922_j46213848105408_2_alg».proof.Proof.LibBlockSumGen

noncomputable section

namespace Cert.Spec

open scoped BigOperators

namespace Bridge

/-! ## Real numbers inside the extended reals -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- A two-index family of reals seen as a family of extended reals. -/
def up {α β : Type*} (f : α → β → ℝ) (a : α) (b : β) : EReal := (f a b : EReal)

theorem up_apply {α β : Type*} (f : α → β → ℝ) (a : α) (b : β) : up f a b = (f a b : EReal) := rfl

/-- A family all of whose entries are real numbers is the image of a family of reals. -/
theorem exists_up {α β : Type*} (f : α → β → EReal) (h : ∀ a b, ∃ x : ℝ, f a b = (x : EReal)) :
    ∃ g : α → β → ℝ, f = up g := by
  choose g hg using h
  exact ⟨g, funext fun a => funext fun b => hg a b⟩

/-! ## The same expressions over the reals -/

section
variable (yp yt mk : Fin 64 → Fin 65536 → ℝ) (A : Fin 65536 → Fin 110 → ℝ) (P : Fin 110 → Fin 65536 → ℝ)

def diffR (r : Fin 64) (n : Fin 65536) : ℝ := (yp r n - yt r n) * mk r n

def projTileR (r : Fin 64) (k : Fin 110) (t : Fin 8) : ℝ :=
  ∑ j : Fin 8192, diffR yp yt mk r (col t j) * P k (col t j)

def projCoreR (c : Fin 2) (r : Fin 64) (k : Fin 110) : ℝ :=
  (((0 + projTileR yp yt mk P r k (tile c 0)) + projTileR yp yt mk P r k (tile c 1)) + projTileR yp yt mk P r k (tile c 2))
    + projTileR yp yt mk P r k (tile c 3)

def projR (r : Fin 64) (k : Fin 110) : ℝ := 0 + ∑ c : Fin 2, projCoreR yp yt mk P c r k

def reconR (r : Fin 64) (n : Fin 65536) : ℝ := (∑ k : Fin 110, projR yp yt mk P r k * A n k) * mk r n

def sqTileR (t : Fin 8) : ℝ :=
  ∑ r : Fin 64, ∑ j : Fin 8192, reconR yp yt mk A P r (col t j) * reconR yp yt mk A P r (col t j)

def sqCoreR (c : Fin 2) : ℝ :=
  (((0 + sqTileR yp yt mk A P (tile c 0)) + sqTileR yp yt mk A P (tile c 1)) + sqTileR yp yt mk A P (tile c 2))
    + sqTileR yp yt mk A P (tile c 3)

def tiledSumR : ℝ := 0 + ∑ c : Fin 2, sqCoreR yp yt mk A P c

def projAllR (y : Fin 64 → Fin 65536 → ℝ) (r : Fin 64) (k : Fin 110) : ℝ :=
  ∑ n : Fin 65536, (y r n * mk r n) * P k n

def reconAllR (y : Fin 64 → Fin 65536 → ℝ) (r : Fin 64) (n : Fin 65536) : ℝ :=
  (∑ k : Fin 110, projAllR mk P y r k * A n k) * mk r n

def plainSumR : ℝ :=
  0 + ∑ r : Fin 64, ∑ n : Fin 65536,
    (reconAllR mk A P yp r n - reconAllR mk A P yt r n) * (reconAllR mk A P yp r n - reconAllR mk A P yt r n)

/-! ## Each extended-real expression at real inputs is the image of its real counterpart -/

theorem diff_up (r : Fin 64) (n : Fin 65536) :
    diff (up yp) (up yt) (up mk) r n = (diffR yp yt mk r n : EReal) := by
  simp only [diff, diffR, up_apply, EReal.coe_sub, EReal.coe_mul]

theorem projTile_up (t : Fin 8) (r : Fin 64) (k : Fin 110) :
    projTile (up yp) (up yt) (up mk) (up P) t r k = (projTileR yp yt mk P r k t : EReal) := by
  simp only [projTile, projTileR, diff_up, up_apply, coe_sum, EReal.coe_mul]

theorem projCore_up (c : Fin 2) (r : Fin 64) (k : Fin 110) :
    projCore (up yp) (up yt) (up mk) (up P) c r k = (projCoreR yp yt mk P c r k : EReal) := by
  simp only [projCore, projCoreR, projTile_up, EReal.coe_add, EReal.coe_zero]

theorem proj_up (r : Fin 64) (k : Fin 110) :
    proj (up yp) (up yt) (up mk) (up P) r k = (projR yp yt mk P r k : EReal) := by
  simp only [proj, projR, projCore_up, coe_sum, EReal.coe_add, EReal.coe_zero]

theorem recon_up (r : Fin 64) (n : Fin 65536) :
    recon (up yp) (up yt) (up mk) (up A) (up P) r n = (reconR yp yt mk A P r n : EReal) := by
  simp only [recon, reconR, proj_up, up_apply, coe_sum, EReal.coe_mul]

theorem sqTile_up (t : Fin 8) :
    sqTile (up yp) (up yt) (up mk) (up A) (up P) t = (sqTileR yp yt mk A P t : EReal) := by
  simp only [sqTile, sqTileR, recon_up, coe_sum, EReal.coe_mul]

theorem sqCore_up (c : Fin 2) :
    sqCore (up yp) (up yt) (up mk) (up A) (up P) c = (sqCoreR yp yt mk A P c : EReal) := by
  simp only [sqCore, sqCoreR, sqTile_up, EReal.coe_add, EReal.coe_zero]

theorem tiledSum_up :
    tiledSum (up yp) (up yt) (up mk) (up A) (up P) = (tiledSumR yp yt mk A P : EReal) := by
  simp only [tiledSum, tiledSumR, sqCore_up, coe_sum, EReal.coe_add, EReal.coe_zero]

theorem projAll_up (y : Fin 64 → Fin 65536 → ℝ) (r : Fin 64) (k : Fin 110) :
    projAll (up mk) (up P) (up y) r k = (projAllR mk P y r k : EReal) := by
  simp only [projAll, projAllR, up_apply, coe_sum, EReal.coe_mul]

theorem reconAll_up (y : Fin 64 → Fin 65536 → ℝ) (r : Fin 64) (n : Fin 65536) :
    reconAll (up mk) (up A) (up P) (up y) r n = (reconAllR mk A P y r n : EReal) := by
  simp only [reconAll, reconAllR, projAll_up, up_apply, coe_sum, EReal.coe_mul]

theorem plainSum_up :
    plainSum (up yp) (up yt) (up mk) (up A) (up P) = (plainSumR yp yt mk A P : EReal) := by
  simp only [plainSum, plainSumR, reconAll_up, coe_sum, EReal.coe_mul, EReal.coe_sub, EReal.coe_add, EReal.coe_zero]

/-! ## The identity over the reals -/

/-- The two cores' four tiles each, every partial sum started from zero, are the eight tiles. -/
theorem sum_tiles (g : Fin 8 → ℝ) :
    0 + ∑ c : Fin 2, ((((0 + g (tile c 0)) + g (tile c 1)) + g (tile c 2)) + g (tile c 3)) = ∑ t : Fin 8, g t := by
  rw [Cert.LibBlockSumGen.sum_blocks (K := 2) (B := 4) (by norm_num) g, zero_add]
  refine Finset.sum_congr rfl (fun c _ => ?_)
  rw [Fin.sum_univ_four, zero_add]
  rfl

/-- A sum over all 65536 pixels is the sum over the eight tiles of the sums over each tile's 8192 pixels. -/
theorem sum_pixels (f : Fin 65536 → ℝ) :
    ∑ n : Fin 65536, f n = ∑ t : Fin 8, ∑ j : Fin 8192, f (col t j) :=
  Cert.LibBlockSumGen.sum_blocks (K := 8) (B := 8192) (by norm_num) f

/-- The tile-by-tile projection is the projection over all pixels. -/
theorem projR_eq (r : Fin 64) (k : Fin 110) :
    projR yp yt mk P r k = ∑ n : Fin 65536, diffR yp yt mk r n * P k n := by
  rw [sum_pixels (fun n => diffR yp yt mk r n * P k n)]
  exact sum_tiles (projTileR yp yt mk P r k)

/-- Projection is linear: the projection of the masked difference is the difference of the masked projections. -/
theorem projR_sub (r : Fin 64) (k : Fin 110) :
    projR yp yt mk P r k = projAllR mk P yp r k - projAllR mk P yt r k := by
  rw [projR_eq]
  unfold projAllR diffR
  rw [← Finset.sum_sub_distrib]
  exact Finset.sum_congr rfl (fun n _ => by ring)

/-- Reconstruction and masking are linear as well. -/
theorem reconR_sub (r : Fin 64) (n : Fin 65536) :
    reconR yp yt mk A P r n = reconAllR mk A P yp r n - reconAllR mk A P yt r n := by
  unfold reconR reconAllR
  rw [← sub_mul, ← Finset.sum_sub_distrib]
  congr 1
  exact Finset.sum_congr rfl (fun k _ => by rw [projR_sub]; ring)

/-- The squares summed tile by tile, rows outside pixels, are the squares summed over rows and all pixels. -/
theorem tiledSumR_eq :
    tiledSumR yp yt mk A P
      = ∑ r : Fin 64, ∑ n : Fin 65536, reconR yp yt mk A P r n * reconR yp yt mk A P r n := by
  unfold tiledSumR sqCoreR
  rw [sum_tiles (sqTileR yp yt mk A P)]
  unfold sqTileR
  rw [Finset.sum_comm]
  exact Finset.sum_congr rfl
    (fun r _ => (sum_pixels (fun n => reconR yp yt mk A P r n * reconR yp yt mk A P r n)).symm)

/-- Over the reals the tiled and the plain sums of squared errors agree. -/
theorem tiledSumR_eq_plainSumR : tiledSumR yp yt mk A P = plainSumR yp yt mk A P := by
  rw [tiledSumR_eq]
  unfold plainSumR
  rw [zero_add]
  refine Finset.sum_congr rfl (fun r _ => Finset.sum_congr rfl (fun n _ => ?_))
  rw [reconR_sub]

end

end Bridge

/-! ## The statement over the extended reals -/

open Bridge in
/-- With every input a real number, the tiled and the plain sums of squared errors agree. -/
theorem tiled_eq_plain (yp yt mk : Fin 64 → Fin 65536 → EReal) (A : Fin 65536 → Fin 110 → EReal)
    (P : Fin 110 → Fin 65536 → EReal)
    (hyp : ∀ r n, ∃ x : ℝ, yp r n = (x : EReal)) (hyt : ∀ r n, ∃ x : ℝ, yt r n = (x : EReal))
    (hmk : ∀ r n, ∃ x : ℝ, mk r n = (x : EReal))
    (hA : ∀ n k, ∃ x : ℝ, A n k = (x : EReal)) (hP : ∀ k n, ∃ x : ℝ, P k n = (x : EReal)) :
    tiledSum yp yt mk A P = plainSum yp yt mk A P := by
  obtain ⟨yp', rfl⟩ := exists_up yp hyp
  obtain ⟨yt', rfl⟩ := exists_up yt hyt
  obtain ⟨mk', rfl⟩ := exists_up mk hmk
  obtain ⟨A', rfl⟩ := exists_up A hA
  obtain ⟨P', rfl⟩ := exists_up P hP
  rw [tiledSum_up, plainSum_up, tiledSumR_eq_plainSumR]

end Cert.Spec

end
-- ==== Proof.Algebraic.lean ====
/-
  The two programs agree at the ideal values.

  The tiled program's run ends with its result at the tiled sum of squared errors divided by the number of elements,
  the plain program's with the plain sum divided by the same constant. The precondition makes every float input a
  real number, the mask is the image of an integer, and for real inputs the two sums are equal; the division and its
  constant are the same operation on both sides and are never evaluated.
-/
import proofs.«159922_j46213848105408_2_alg».proof.Defs
import proofs.«159922_j46213848105408_2_alg».proof.Proof.RefValue
import proofs.«159922_j46213848105408_2_alg».proof.Proof.Finite
import proofs.«159922_j46213848105408_2_alg».proof.Proof.Bridge
import proofs.«159922_j46213848105408_2_alg».proof.Proof.Gen.ReferenceIdeal.Run
import proofs.«159922_j46213848105408_2_alg».proof.Proof.Gen.KernelIdeal
import proofs.«159922_j46213848105408_2_alg».proof.Proof.Gen.ReferenceIdeal
import proofs.«159922_j46213848105408_2_alg».proof.Proof.Gen.Pre_finite_inputs
import proofs.«159922_j46213848105408_2_alg».proof.Proof.Inputs
import proofs.«159922_j46213848105408_2_alg».proof.Proof.Spec

noncomputable section

open Idealize.ShloMosaic Idealize.ShloMosaic.TcCoe Idealize.SL.Sem

namespace Cert.Proof.Alg

/-- From the tiled program's run with its result at the tiled sum divided by the number of elements: the two
    programs, run from memories that agree on real-valued arguments, end with equal results. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v7)
            = Host.divf (F := Ideal)
              (fun _ => Cert.Spec.tiledSum (Cert.Inputs.flat (m ((c.tc : Thread Cert.KernelIdeal.nD Cert.KernelIdeal.τ).loc Cert.KernelIdeal.main_arg0))) (Cert.Inputs.flat (m ((c.tc : Thread Cert.KernelIdeal.nD Cert.KernelIdeal.τ).loc Cert.KernelIdeal.main_arg1)))
                (Cert.Inputs.maskReal (m ((c.tc : Thread Cert.KernelIdeal.nD Cert.KernelIdeal.τ).loc Cert.KernelIdeal.main_arg2))) (Cert.Inputs.mat (m ((c.tc : Thread Cert.KernelIdeal.nD Cert.KernelIdeal.τ).loc Cert.KernelIdeal.main_arg3))) (Cert.Inputs.mat (m ((c.tc : Thread Cert.KernelIdeal.nD Cert.KernelIdeal.τ).loc Cert.KernelIdeal.main_arg4))))
              (constant (F := Ideal) Cert.KernelIdeal.S_ .f32 0x4A800000#32)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal := by
  intro m ρ m' ρ' hpre hagree
  refine ⟨fun c => Host.divf (F := Ideal)
              (fun _ => Cert.Spec.tiledSum (Cert.Inputs.flat (m ((c.tc : Thread Cert.KernelIdeal.nD Cert.KernelIdeal.τ).loc Cert.KernelIdeal.main_arg0))) (Cert.Inputs.flat (m ((c.tc : Thread Cert.KernelIdeal.nD Cert.KernelIdeal.τ).loc Cert.KernelIdeal.main_arg1)))
                (Cert.Inputs.maskReal (m ((c.tc : Thread Cert.KernelIdeal.nD Cert.KernelIdeal.τ).loc Cert.KernelIdeal.main_arg2))) (Cert.Inputs.mat (m ((c.tc : Thread Cert.KernelIdeal.nD Cert.KernelIdeal.τ).loc Cert.KernelIdeal.main_arg3))) (Cert.Inputs.mat (m ((c.tc : Thread Cert.KernelIdeal.nD Cert.KernelIdeal.τ).loc Cert.KernelIdeal.main_arg4))))
              (constant (F := Ideal) Cert.KernelIdeal.S_ .f32 0x4A800000#32), hrun m ρ, ?_⟩
  refine (θ_run Cert.ReferenceIdeal.defs _ _).mono (fun _ h c => ⟨(h c).1.trans ?_, (h c).2⟩)
    (Cert.ReferenceIdeal.Value.run (F := Ideal) m' ρ')
  refine (Cert.RefValue.ref_result _ _ _ _ _).trans ?_
  rw [(hagree c).1, (hagree c).2.1, (hagree c).2.2.1, (hagree c).2.2.2.1, (hagree c).2.2.2.2]
  obtain ⟨h0, h1, h3, h4⟩ := Cert.Finite.inputs_real _ _ _ _ _ (hpre c)
  exact congrArg
    (fun s : EReal => Host.divf (F := Ideal) (fun _ => s) (constant (F := Ideal) Cert.ReferenceIdeal.S_ .f32 0x4A800000#32))
    (Cert.Spec.tiled_eq_plain _ _ _ _ _ (fun r n => h0 (Cert.Inputs.at4 r n)) (fun r n => h1 (Cert.Inputs.at4 r n))
      (fun r n => ⟨_, rfl⟩) (fun n k => h3 (ValueIdx.ix2 n k)) (fun k n => h4 (ValueIdx.ix2 k n))).symm

end Cert.Proof.Alg

end
-- ==== Proof.lean ====
/-
  The certificate's five claims.

  The two kernel programs' frames are the whole run of @main read at the argument arrays: host operations, the
  projection kernel's region, host operations, the reconstruction kernel's region, host operations, composed in
  order, each kernel body run once per control case — a core's first tile, a middle tile, a core's last tile — with its
  accumulator carried between grid points. The reference's frame is its run with the result dropped. The
  idealization rewrote nothing. At the ideal values the kernel program's result is the tiled sum of squared errors
  divided by the pixel count, and the reference's the plain one divided by the same count; with every float input
  finite the two sums agree, by linearity of the projection and of the reconstruction and by regrouping the tiles.
-/
import proofs.«159922_j46213848105408_2_alg».proof.Defs
import proofs.«159922_j46213848105408_2_alg».proof.Proof.Gen.Kernel
import proofs.«159922_j46213848105408_2_alg».proof.Proof.Gen.KernelIdeal
import proofs.«159922_j46213848105408_2_alg».proof.Proof.Gen.ReferenceIdeal
import proofs.«159922_j46213848105408_2_alg».proof.Proof.Gen.ReferenceIdeal.Run
import proofs.«159922_j46213848105408_2_alg».proof.Proof.Gen.ReferenceIdeal.Read
import proofs.«159922_j46213848105408_2_alg».proof.Proof.Gen.Pre_finite_inputs
import proofs.«159922_j46213848105408_2_alg».proof.Proof.KB.Run
import proofs.«159922_j46213848105408_2_alg».proof.Proof.KI.Final
import proofs.«159922_j46213848105408_2_alg».proof.Proof.Algebraic
import Idealize.ShloMosaic.Adequacy
import Idealize.ShloMosaic.Init

noncomputable section

namespace Cert.Proof

open Idealize.ShloMosaic Idealize.SL.Sem

/-- The word-level kernel program runs to the end, nothing faulting, its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization is the program's own text read at the ideal values: nothing to preserve. -/
theorem preserves : Cert.preserves_Kernel_KernelIdeal := trivial
/-- At the ideal values, on finite inputs, the two programs end with equal results. -/
theorem algebraic : Cert.algebraic_KernelIdeal_ReferenceIdeal :=
  Cert.Proof.Alg.algebraic_of fun m ρ => Cert.KernelIdeal.Hand.run_value m ρ

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
